-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4194304 : Shape := ⟨2, ![16, 4194304]⟩
abbrev S1024 : Shape := ⟨1, ![1024]⟩
abbrev S_ : Shape := ⟨0, ![]⟩

class Facts : Prop where
  bcast_S_S16x4194304 : S_.BroadcastsInDim S16x4194304 (![] : Fin 0 → Fin S16x4194304.rank)
  reducesTo_S16x4194304_S_d0_1 : S16x4194304.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x4194304 .f32) (main_arg1 : FVec F S1024 .f32) (main_arg2 : FVec F S1024 .f32) : IVec S_ 1 :=
  let main_v0 : FVec F S16x4194304 .f32 := Host.absf main_arg0
  let main_cst : FVec F S_ .f32 := constant S_ .f32 0x7F800000#32
  let main_v1 : FVec F S16x4194304 .f32 := broadcastInDim S16x4194304 ![] bcast_S_S16x4194304 main_cst
  let main_v2 : IVec S16x4194304 1 := cmpf .olt main_v0 main_v1
  let main_c : IVec S_ 1 := constantI S_ 1 1#1
  let main_v3 : IVec S_ 1 := (fun x v => Host.reduce IntOp.andi x v reducesTo_S16x4194304_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16x4194304 : Shape := ⟨2, ![16, 4194304]⟩
abbrev S1024 : Shape := ⟨1, ![1024]⟩
abbrev S512 : Shape := ⟨1, ![512]⟩
abbrev S1x512 : Shape := ⟨2, ![1, 512]⟩
abbrev S1x1x1x512 : Shape := ⟨4, ![1, 1, 1, 512]⟩
abbrev S1x1x256x512 : Shape := ⟨4, ![1, 1, 256, 512]⟩
abbrev S1x131072 : Shape := ⟨2, ![1, 131072]⟩
abbrev S16x131072 : Shape := ⟨2, ![16, 131072]⟩
abbrev S16x512 : Shape := ⟨2, ![16, 512]⟩

abbrev nBuf : Space → Nat
  | .hbm => 16
  | .vmem => 7
  | .smem => 0
  | _ => 0

abbrev bufTy : (tb : Table) → Fin (tcTables nBuf tb) → BufTy
  | .hbm, ⟨0, _⟩ => ⟨S16x4194304, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S1x1x1x512, .f32⟩
  | .hbm, ⟨13, _⟩ => ⟨S1x1x256x512, .f32⟩
  | .hbm, ⟨14, _⟩ => ⟨S1x131072, .f32⟩
  | .hbm, ⟨15, _⟩ => ⟨S16x4194304, .f32⟩
  | .local _ .vmem, ⟨0, _⟩ => ⟨S16x131072, .f32⟩
  | .local _ .vmem, ⟨1, _⟩ => ⟨S16x131072, .f32⟩
  | .local _ .vmem, ⟨2, _⟩ => ⟨S1x131072, .f32⟩
  | .local _ .vmem, ⟨3, _⟩ => ⟨S1x512, .f32⟩
  | .local _ .vmem, ⟨4, _⟩ => ⟨S1x512, .f32⟩
  | .local _ .vmem, ⟨5, _⟩ => ⟨S16x131072, .f32⟩
  | .local _ .vmem, ⟨6, _⟩ => ⟨S16x131072, .f32⟩
  | _, _ => ⟨S16x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x131072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x131072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1024_S512_0 : S1024.Slices ![0] S512
  slices_S1024_S512_512 : S1024.Slices ![512] S512
  shapeCasts_S512_S1x512 : S512.ShapeCasts S1x512
  shapeCasts_S1x512_S1x1x1x512 : S1x512.ShapeCasts S1x1x1x512
  bcast_S1x1x1x512_S1x1x256x512_0_1_2_3 : S1x1x1x512.BroadcastsInDim S1x1x256x512 (![0, 1, 2, 3] : Fin 4 → Fin S1x1x256x512.rank)
  shapeCasts_S1x1x256x512_S1x131072 : S1x1x256x512.ShapeCasts S1x131072
  inb_S16x131072_S16x131072_0_0 : ∀ a, (![0, 0] : Fin 2 → Nat) a + S16x131072.size a ≤ S16x131072.size a
  h_S16x131072 : 0 < S16x131072.numel
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  broadcasts_S1x131072_S16x131072 : S1x131072.Broadcasts S16x131072
  inb_S16x131072_S16x512_0_0 : ∀ a, (![0, 0] : Fin 2 → Nat) a + S16x512.size a ≤ S16x131072.size a
  h_S16x512 : 0 < S16x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S16x131072_S16x512_0_130560 : ∀ a, (![0, 130560] : Fin 2 → Nat) a + S16x512.size a ≤ S16x131072.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x131072.size a ≤ S16x4194304.size a
  hwx0_0 : ∀ i : grid0.Coords, EltTy.bits .f32 = 32 ∨ (Rect.block (s := S16x4194304) S16x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x131072.size a ≤ S1x131072.size a
  hwx0_1 : ∀ i : grid0.Coords, EltTy.bits .f32 = 32 ∨ (Rect.block (s := S1x131072) S1x131072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x131072.size a ≤ S16x4194304.size a
  hwx0_4 : ∀ i : grid0.Coords, EltTy.bits .f32 = 32 ∨ (Rect.block (s := S16x4194304) S16x131072.size (cc0_transform_4 i) (hinb0_4 i)).WholeWords (EltTy.packing .f32)

variable [Facts₀]

abbrev win0_0 : Pipeline.Window sig grid0 :=
  Pipeline.Window.ofSpec (Memref.whole main_arg0) S16x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S1x131072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x131072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4194304 : Shape := ⟨2, ![16, 4194304]⟩
abbrev S1024 : Shape := ⟨1, ![1024]⟩
abbrev S8191 : Shape := ⟨1, ![8191]⟩
abbrev S_ : Shape := ⟨0, ![]⟩
abbrev S8191x1 : Shape := ⟨2, ![8191, 1]⟩
abbrev S1x1024 : Shape := ⟨2, ![1, 1024]⟩
abbrev S8191x1024 : Shape := ⟨2, ![8191, 1024]⟩
abbrev S8191x1024x1 : Shape := ⟨3, ![8191, 1024, 1]⟩
abbrev S16x8191x1024 : Shape := ⟨3, ![16, 8191, 1024]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x4194304, .f32⟩
  | .hbm, ⟨1, _⟩ => ⟨S1024, .f32⟩
  | .hbm, ⟨2, _⟩ => ⟨S1024, .f32⟩
  | .hbm, ⟨3, _⟩ => ⟨S8191, .i32⟩
  | .hbm, ⟨4, _⟩ => ⟨S_, .i32⟩
  | .hbm, ⟨5, _⟩ => ⟨S8191, .i32⟩
  | .hbm, ⟨6, _⟩ => ⟨S8191, .i32⟩
  | .hbm, ⟨7, _⟩ => ⟨S8191x1, .i32⟩
  | .hbm, ⟨8, _⟩ => ⟨S1024, .i32⟩
  | .hbm, ⟨9, _⟩ => ⟨S1x1024, .i32⟩
  | .hbm, ⟨10, _⟩ => ⟨S8191x1024, .i32⟩
  | .hbm, ⟨11, _⟩ => ⟨S8191x1024, .i32⟩
  | .hbm, ⟨12, _⟩ => ⟨S8191x1024, .i32⟩
  | .hbm, ⟨13, _⟩ => ⟨S_, .i32⟩
  | .hbm, ⟨14, _⟩ => ⟨S8191x1024, .i32⟩
  | .hbm, ⟨15, _⟩ => ⟨S8191x1024, .i1⟩
  | .hbm, ⟨16, _⟩ => ⟨S_, .i32⟩
  | .hbm, ⟨17, _⟩ => ⟨S8191x1024, .i32⟩
  | .hbm, ⟨18, _⟩ => ⟨S8191x1024, .i32⟩
  | .hbm, ⟨19, _⟩ => ⟨S8191x1024, .i32⟩
  | .hbm, ⟨20, _⟩ => ⟨S8191x1024x1, .i32⟩
  | .hbm, ⟨21, _⟩ => ⟨S16x8191x1024, .f32⟩
  | .hbm, ⟨22, _⟩ => ⟨S1x1x1024, .f32⟩
  | .hbm, ⟨23, _⟩ => ⟨S16x8191x1024, .f32⟩
  | .hbm, ⟨24, _⟩ => ⟨S16x8191x1024, .f32⟩
  | .hbm, ⟨25, _⟩ => ⟨S_, .f32⟩
  | .hbm, ⟨26, _⟩ => ⟨S16x4194304, .f32⟩
  | .hbm, ⟨27, _⟩ => ⟨S1x1x1024, .f32⟩
  | .hbm, ⟨28, _⟩ => ⟨S16x8191x1024, .f32⟩
  | .hbm, ⟨29, _⟩ => ⟨S16x8191x1024, .f32⟩
  | .hbm, ⟨30, _⟩ => ⟨S_, .i32⟩
  | .hbm, ⟨31, _⟩ => ⟨S8191x1024, .i32⟩
  | .hbm, ⟨32, _⟩ => ⟨S8191x1024, .i1⟩
  | .hbm, ⟨33, _⟩ => ⟨S_, .i32⟩
  | .hbm, ⟨34, _⟩ => ⟨S8191x1024, .i32⟩
  | .hbm, ⟨35, _⟩ => ⟨S8191x1024, .i32⟩
  | .hbm, ⟨36, _⟩ => ⟨S8191x1024, .i32⟩
  | .hbm, ⟨37, _⟩ => ⟨S8191x1024x1, .i32⟩
  | .hbm, ⟨38, _⟩ => ⟨S16x4194304, .f32⟩
  | _, _ => ⟨S16x4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S_S8191 : S_.BroadcastsInDim S8191 (![] : Fin 0 → Fin S8191.rank)
  bcast_S8191_S8191x1_0 : S8191.BroadcastsInDim S8191x1 (![0] : Fin 1 → Fin S8191x1.rank)
  bcast_S1024_S1x1024_1 : S1024.BroadcastsInDim S1x1024 (![1] : Fin 1 → Fin S1x1024.rank)
  bcast_S8191x1_S8191x1024_0_1 : S8191x1.BroadcastsInDim S8191x1024 (![0, 1] : Fin 2 → Fin S8191x1024.rank)
  bcast_S1x1024_S8191x1024_0_1 : S1x1024.BroadcastsInDim S8191x1024 (![0, 1] : Fin 2 → Fin S8191x1024.rank)
  bcast_S_S8191x1024 : S_.BroadcastsInDim S8191x1024 (![] : Fin 0 → Fin S8191x1024.rank)
  bcast_S8191x1024_S8191x1024x1_0_1 : S8191x1024.BroadcastsInDim S8191x1024x1 (![0, 1] : Fin 2 → Fin S8191x1024x1.rank)
  bcast_S1024_S1x1x1024_2 : S1024.BroadcastsInDim S1x1x1024 (![2] : Fin 1 → Fin S1x1x1024.rank)
  bcast_S1x1x1024_S16x8191x1024_0_1_2 : S1x1x1024.BroadcastsInDim S16x8191x1024 (![0, 1, 2] : Fin 3 → Fin S16x8191x1024.rank)
  bcast_S_S16x4194304 : S_.BroadcastsInDim S16x4194304 (![] : Fin 0 → Fin S16x4194304.rank)
  gather_S16x4194304_S8191x1024x1_S16x8191x1024_0_1_n_n_1_2_161_wf : GatherDims.WF S16x4194304 S8191x1024x1 S16x8191x1024 [0] [1] [] [1] [] 2 ![16, 1]
  scatter_S16x4194304_S8191x1024x1_S16x8191x1024_0_1_1_2_wf : ScatterDims.WF S16x4194304 S8191x1024x1 S16x8191x1024 [0] [1] [1] 2

variable [Facts₀]

def gather_S16x4194304_S8191x1024x1_S16x8191x1024_0_1_n_n_1_2_161 : GatherDims S16x4194304 S8191x1024x1 S16x8191x1024 where
  offsetDims := [0]
  collapsedSliceDims := [1]
  operandBatchingDims := []
  startIndicesBatchingDims := []
  startIndexMap := [1]
  indexVectorDim := 2
  sliceSizes := ![16, 1]
  wf := gather_S16x4194304_S8191x1024x1_S16x8191x1024_0_1_n_n_1_2_161_wf
def scatter_S16x4194304_S8191x1024x1_S16x8191x1024_0_1_1_2 : ScatterDims S16x4194304 S8191x1024x1 S16x8191x1024 where
  updateWindowDims := [0]
  insertedWindowDims := [1]
  scatterDimsToOperandDims := [1]
  indexVectorDim := 2
  wf := scatter_S16x4194304_S8191x1024x1_S16x8191x1024_0_1_1_2_wf

class Facts : Prop extends Facts₀ where

variable [Facts]
-- ==== Proof.Spec.lean ====
/-
  Windowed overlap-add with hop 512 and frame length 1024, over a signal of 4194304 samples in 16 rows.

  Frame k (k < 8191) covers the samples 512·k + t, t < 1024. Sample n of the result is the sum, over the frames
  covering it, of x[b, n] · a[t] · s[t] with t the sample's position in the frame. Every sample is covered by at
  most two frames: the first 512 samples by frame 0 only, the last 512 by frame 8190 only, and any other sample n
  by frames n / 512 (at position n % 512) and n / 512 − 1 (at position n % 512 + 512).

  Two spellings of that result, as functions of the signal x and the two windows a, s on the extended reals:
  `olaSum` adds the covering frames' terms one by one (a sum over the update indices (b, k, t) that land on the
  sample), `olaMul` multiplies the sample by one precomputed weight. They agree where every input is a real number
  (the step is x·(p + q) = x·p + x·q, which fails at infinities).
-/
import Idealize.ShloMosaic.PureOps.Ideal
import Idealize.ShloMosaic.Lib.ValueIdx

noncomputable section

open scoped BigOperators

namespace Cert.Ola

open Idealize.ShloMosaic Idealize.ShloMosaic.ValueIdx

/-- The signal's shape: 16 rows of 4194304 samples. -/
abbrev SX : Shape := ⟨2, ![16, 4194304]⟩
/-- A window's shape: 1024 taps. -/
abbrev SW : Shape := ⟨1, ![1024]⟩
/-- The frames' shape: 16 rows, 8191 frames, 1024 positions. -/
abbrev SU : Shape := ⟨3, ![16, 8191, 1024]⟩

/-- A frame index's coordinates are below the literal extents (so that `omega` can use them). -/
theorem su_lt0 (j : SU.Idx) : (j 0).val < 16 := (j 0).isLt
theorem su_lt1 (j : SU.Idx) : (j 1).val < 8191 := (j 1).isLt
theorem su_lt2 (j : SU.Idx) : (j 2).val < 1024 := (j 2).isLt

/-- The product of the two windows at tap `t`. -/
def pw (a s : SW.Idx → EReal) (t : Fin 1024) : EReal := a (ix1 t) * s (ix1 t)

/-- The weight of sample `n`: the product window at the one covering position on the first and last 512 samples,
    the sum of the product window at the two covering positions elsewhere. -/
def weight (a s : SW.Idx → EReal) (n : Fin 4194304) : EReal :=
  if h : n.val < 512 then pw a s ⟨n.val, by omega⟩
  else if h' : 4193792 ≤ n.val then pw a s ⟨n.val - 4193280, by omega⟩
  else pw a s ⟨n.val % 512, by omega⟩ + pw a s ⟨n.val % 512 + 512, by omega⟩

/-- The result as ONE multiplication per sample. -/
def olaMul (x : SX.Idx → EReal) (a s : SW.Idx → EReal) : SX.Idx → EReal :=
  fun i => x i * weight a s ⟨(i 1).val, idx2_lt1 i⟩

/-- Update `(b, k, t)` lands on sample `(b, 512·k + t)`. -/
def lands (j : SU.Idx) (i : SX.Idx) : Prop :=
  (j 0).val = (i 0).val ∧ 512 * (j 1).val + (j 2).val = (i 1).val

instance (j : SU.Idx) (i : SX.Idx) : Decidable (lands j i) := by unfold lands; infer_instance

/-- Frame `k`'s term at position `t`, row `b`: the sample under it, times the first window's tap, times the second's. -/
def term (x : SX.Idx → EReal) (a s : SW.Idx → EReal) (j : SU.Idx) : EReal :=
  x (ix2 (⟨(j 0).val, su_lt0 j⟩ : Fin 16) (⟨512 * (j 1).val + (j 2).val, by
      have h1 := su_lt1 j; have h2 := su_lt2 j; omega⟩ : Fin 4194304))
    * a (ix1 (⟨(j 2).val, su_lt2 j⟩ : Fin 1024)) * s (ix1 (⟨(j 2).val, su_lt2 j⟩ : Fin 1024))

/-- The result as a sum, from zero, of the terms of the updates that land on the sample. -/
def olaSum (x : SX.Idx → EReal) (a s : SW.Idx → EReal) : SX.Idx → EReal :=
  fun i => 0 + ∑ j ∈ Finset.univ.filter (fun j : SU.Idx => lands j i), term x a s j

/-- Every entry of an array is a real number. -/
def Real' {S : Shape} (x : S.Idx → EReal) : Prop := ∀ i, ∃ r : ℝ, x i = (r : EReal)

end Cert.Ola

end
-- ==== Proof.OlaAlgebra.lean ====
/-
  The two spellings of the windowed overlap-add (hop 512, frame length 1024, 8191 frames over 4194304 samples in
  16 rows) agree where every input is a real number.

  For a sample (b, n) the updates (b', k, t) that land on it are those with b' = b and 512·k + t = n, where
  k < 8191 and t < 1024. Solving for (k, t):
    * n < 512:            only (0, n);
    * n ≥ 4193792:        only (8190, n − 4193280), since 512·8190 = 4193280;
    * otherwise:          (n / 512, n % 512) and (n / 512 − 1, n % 512 + 512), and these two differ.
  So the sum over the landing updates is one term, or two terms. A term of an update landing on (b, n) is
  x[b, n] · (a[t] · s[t]) by associativity, so the one-term cases are exactly the product with the weight, and the
  two-term case is x·p + x·q = x·(p + q), which holds for real numbers.
-/
import proofs.«107913_j91293824843827_2_alg».proof.Proof.Spec

noncomputable section

open scoped BigOperators

namespace Cert.Ola

open Idealize.ShloMosaic Idealize.ShloMosaic.ValueIdx

/-- A frame index is determined by the values of its three coordinates. -/
theorem su_eq_ix3 (j : SU.Idx) (b : Fin 16) (k : Fin 8191) (t : Fin 1024)
    (h0 : (j 0).val = b.val) (h1 : (j 1).val = k.val) (h2 : (j 2).val = t.val) : j = ix3 b k t := by
  funext d
  match d with
  | ⟨0, _⟩ => exact Fin.ext h0
  | ⟨1, _⟩ => exact Fin.ext h1
  | ⟨2, _⟩ => exact Fin.ext h2

/-- Landing on the sample `(b, n)`, in coordinates. -/
theorem lands_ix2 (j : SU.Idx) (b : Fin 16) (n : Fin 4194304) :
    lands j (ix2 b n) ↔ (j 0).val = b.val ∧ 512 * (j 1).val + (j 2).val = n.val := Iff.rfl

/-- The update `(b', k, t)` lands on the sample `(b, n)` exactly when `b' = b` and `512·k + t = n`. -/
theorem lands_ix3 (b' : Fin 16) (k : Fin 8191) (t : Fin 1024) (b : Fin 16) (n : Fin 4194304) :
    lands (ix3 b' k t) (ix2 b n) ↔ b'.val = b.val ∧ 512 * k.val + t.val = n.val := Iff.rfl

/-- The term of an update that lands on `(b, n)` is the sample times the product window at the update's position. -/
theorem term_ix3 (x : SX.Idx → EReal) (a s : SW.Idx → EReal) (b : Fin 16) (k : Fin 8191) (t : Fin 1024)
    (n : Fin 4194304) (hn : 512 * k.val + t.val = n.val) :
    term x a s (ix3 b k t) = x (ix2 b n) * pw a s t := by
  have e : (⟨512 * k.val + t.val, by omega⟩ : Fin 4194304) = n := Fin.ext hn
  show x (ix2 b ⟨512 * k.val + t.val, _⟩) * a (ix1 t) * s (ix1 t) = x (ix2 b n) * (a (ix1 t) * s (ix1 t))
  rw [e, mul_assoc]

/-- On the first 512 samples only frame 0 lands. -/
theorem filter_first (b : Fin 16) (n : Fin 4194304) (h : n.val < 512) :
    Finset.univ.filter (fun j : SU.Idx => lands j (ix2 b n))
      = {ix3 b (⟨0, by omega⟩ : Fin 8191) (⟨n.val, by omega⟩ : Fin 1024)} := by
  ext j
  rw [Finset.mem_filter, Finset.mem_singleton]
  constructor
  · rintro ⟨-, hl⟩
    obtain ⟨h0, h1⟩ := (lands_ix2 j b n).mp hl
    have hk := su_lt1 j
    have ht := su_lt2 j
    exact su_eq_ix3 j b _ _ h0 (show (j 1).val = 0 by omega) (show (j 2).val = n.val by omega)
  · rintro rfl
    exact ⟨Finset.mem_univ _, (lands_ix3 _ _ _ _ _).mpr ⟨rfl, show 512 * 0 + n.val = n.val by omega⟩⟩

/-- On the last 512 samples only frame 8190 lands. -/
theorem filter_last (b : Fin 16) (n : Fin 4194304) (h : 4193792 ≤ n.val) :
    Finset.univ.filter (fun j : SU.Idx => lands j (ix2 b n))
      = {ix3 b (⟨8190, by omega⟩ : Fin 8191) (⟨n.val - 4193280, by omega⟩ : Fin 1024)} := by
  ext j
  rw [Finset.mem_filter, Finset.mem_singleton]
  constructor
  · rintro ⟨-, hl⟩
    obtain ⟨h0, h1⟩ := (lands_ix2 j b n).mp hl
    have hk := su_lt1 j
    have ht := su_lt2 j
    exact su_eq_ix3 j b _ _ h0 (show (j 1).val = 8190 by omega) (show (j 2).val = n.val - 4193280 by omega)
  · rintro rfl
    exact ⟨Finset.mem_univ _, (lands_ix3 _ _ _ _ _).mpr ⟨rfl, show 512 * 8190 + (n.val - 4193280) = n.val by omega⟩⟩

/-- On every other sample exactly two frames land. -/
theorem filter_mid (b : Fin 16) (n : Fin 4194304) (h : ¬ n.val < 512) (h' : ¬ 4193792 ≤ n.val) :
    Finset.univ.filter (fun j : SU.Idx => lands j (ix2 b n))
      = {ix3 b (⟨n.val / 512, by omega⟩ : Fin 8191) (⟨n.val % 512, by omega⟩ : Fin 1024),
         ix3 b (⟨n.val / 512 - 1, by omega⟩ : Fin 8191) (⟨n.val % 512 + 512, by omega⟩ : Fin 1024)} := by
  ext j
  rw [Finset.mem_filter, Finset.mem_insert, Finset.mem_singleton]
  constructor
  · rintro ⟨-, hl⟩
    obtain ⟨h0, h1⟩ := (lands_ix2 j b n).mp hl
    have hk := su_lt1 j
    have ht := su_lt2 j
    by_cases hlt : (j 2).val < 512
    · left
      exact su_eq_ix3 j b _ _ h0 (show (j 1).val = n.val / 512 by omega) (show (j 2).val = n.val % 512 by omega)
    · right
      exact su_eq_ix3 j b _ _ h0 (show (j 1).val = n.val / 512 - 1 by omega)
        (show (j 2).val = n.val % 512 + 512 by omega)
  · rintro (rfl | rfl)
    · exact ⟨Finset.mem_univ _, (lands_ix3 _ _ _ _ _).mpr
        ⟨rfl, show 512 * (n.val / 512) + n.val % 512 = n.val by omega⟩⟩
    · exact ⟨Finset.mem_univ _, (lands_ix3 _ _ _ _ _).mpr
        ⟨rfl, show 512 * (n.val / 512 - 1) + (n.val % 512 + 512) = n.val by omega⟩⟩

/-- The two frames landing on a middle sample are different updates (their positions differ by 512). -/
theorem mid_ne (b : Fin 16) (n : Fin 4194304) (h : ¬ n.val < 512) (h' : ¬ 4193792 ≤ n.val) :
    ix3 b (⟨n.val / 512, by omega⟩ : Fin 8191) (⟨n.val % 512, by omega⟩ : Fin 1024)
      ≠ ix3 b (⟨n.val / 512 - 1, by omega⟩ : Fin 8191) (⟨n.val % 512 + 512, by omega⟩ : Fin 1024) := by
  intro e
  have e2 : (⟨n.val % 512, by omega⟩ : Fin 1024) = ⟨n.val % 512 + 512, by omega⟩ := congrFun e 2
  have e3 : n.val % 512 = n.val % 512 + 512 := congrArg Fin.val e2
  omega

/-- The product window of real windows is real. -/
theorem pw_real (a s : SW.Idx → EReal) (ha : Real' a) (hs : Real' s) (t : Fin 1024) :
    ∃ r : ℝ, pw a s t = (r : EReal) := by
  obtain ⟨ra, hra⟩ := ha (ix1 t)
  obtain ⟨rs, hrs⟩ := hs (ix1 t)
  exact ⟨ra * rs, by unfold pw; rw [hra, hrs, EReal.coe_mul]⟩

/-- Multiplication distributes over addition on real numbers. -/
theorem real_mul_add (u p q : EReal) (hu : ∃ r : ℝ, u = (r : EReal)) (hp : ∃ r : ℝ, p = (r : EReal))
    (hq : ∃ r : ℝ, q = (r : EReal)) : u * p + u * q = u * (p + q) := by
  obtain ⟨ru, rfl⟩ := hu
  obtain ⟨rp, rfl⟩ := hp
  obtain ⟨rq, rfl⟩ := hq
  rw [← EReal.coe_mul, ← EReal.coe_mul, ← EReal.coe_add, ← EReal.coe_add, ← EReal.coe_mul, mul_add]

/-- The first 512 samples: one term, equal to the sample times its weight. -/
theorem ola_first (x : SX.Idx → EReal) (a s : SW.Idx → EReal) (b : Fin 16) (n : Fin 4194304) (h : n.val < 512) :
    olaSum x a s (ix2 b n) = olaMul x a s (ix2 b n) := by
  have hw : weight a s n = pw a s ⟨n.val, by omega⟩ := dif_pos h
  show 0 + ∑ j ∈ Finset.univ.filter (fun j : SU.Idx => lands j (ix2 b n)), term x a s j
    = x (ix2 b n) * weight a s n
  rw [filter_first b n h, Finset.sum_singleton, hw, zero_add]
  exact term_ix3 x a s b _ _ n (show 512 * 0 + n.val = n.val by omega)

/-- The last 512 samples: one term, equal to the sample times its weight. -/
theorem ola_last (x : SX.Idx → EReal) (a s : SW.Idx → EReal) (b : Fin 16) (n : Fin 4194304) (h : ¬ n.val < 512)
    (h' : 4193792 ≤ n.val) : olaSum x a s (ix2 b n) = olaMul x a s (ix2 b n) := by
  have hw : weight a s n = pw a s ⟨n.val - 4193280, by omega⟩ := (dif_neg h).trans (dif_pos h')
  show 0 + ∑ j ∈ Finset.univ.filter (fun j : SU.Idx => lands j (ix2 b n)), term x a s j
    = x (ix2 b n) * weight a s n
  rw [filter_last b n h', Finset.sum_singleton, hw, zero_add]
  exact term_ix3 x a s b _ _ n (show 512 * 8190 + (n.val - 4193280) = n.val by omega)

/-- Every other sample: two terms, whose sum is the sample times the sum of the two product-window values. -/
theorem ola_mid (x : SX.Idx → EReal) (a s : SW.Idx → EReal) (hx : Real' x) (ha : Real' a) (hs : Real' s)
    (b : Fin 16) (n : Fin 4194304) (h : ¬ n.val < 512) (h' : ¬ 4193792 ≤ n.val) :
    olaSum x a s (ix2 b n) = olaMul x a s (ix2 b n) := by
  have hw : weight a s n = pw a s ⟨n.val % 512, by omega⟩ + pw a s ⟨n.val % 512 + 512, by omega⟩ :=
    (dif_neg h).trans (dif_neg h')
  show 0 + ∑ j ∈ Finset.univ.filter (fun j : SU.Idx => lands j (ix2 b n)), term x a s j
    = x (ix2 b n) * weight a s n
  rw [filter_mid b n h h', Finset.sum_pair (mid_ne b n h h'), hw, zero_add,
    term_ix3 x a s b _ _ n (show 512 * (n.val / 512) + n.val % 512 = n.val by omega),
    term_ix3 x a s b _ _ n (show 512 * (n.val / 512 - 1) + (n.val % 512 + 512) = n.val by omega)]
  exact real_mul_add _ _ _ (hx _) (pw_real a s ha hs _) (pw_real a s ha hs _)

/-- The sum over the landing updates is one multiplication by the weight, on real inputs. -/
theorem olaSum_eq_olaMul (x : SX.Idx → EReal) (a s : SW.Idx → EReal) (hx : Real' x) (ha : Real' a) (hs : Real' s) :
    olaSum x a s = olaMul x a s := by
  funext i
  obtain ⟨b, n, rfl⟩ : ∃ (b : Fin 16) (n : Fin 4194304), i = ix2 b n := ⟨i 0, i 1, eq_ix2 i⟩
  by_cases h : n.val < 512
  · exact ola_first x a s b n h
  · by_cases h' : 4193792 ≤ n.val
    · exact ola_last x a s b n h h'
    · exact ola_mid x a s hx ha hs b n h h'

end Cert.Ola

end
-- ==== Proof.Finite.lean ====
/-
  Finite inputs are real. The precondition is the conjunction, over the signal and the two windows, of
  "every entry's absolute value is strictly below +∞". On the extended reals |y| = max y (−y) is +∞ at both
  infinities and a real number otherwise, so |y| < ⊤ holds exactly when y is a real number. A conjunction of
  one-bit words by bitwise and is 1 only when both words are 1, and a reduction by and over all the axes of an
  array that came out 1 met a 1 at every entry; hence each of the three arrays has only real entries.
-/
import proofs.«107913_j91293824843827_2_alg».proof.Pre_finite_inputs
import proofs.«107913_j91293824843827_2_alg».proof.Proof.Spec
import Idealize.ShloMosaic.Lib.ReduceAll
import Idealize.ShloMosaic.Lib.ValueIdx

namespace Cert.Ola

open Idealize.ShloMosaic Idealize.ShloMosaic.ValueIdx

/-- The single-precision pattern 0x7F800000 (sign 0, exponent all ones, fraction 0) denotes +∞. -/
private theorem top_bits : Ideal.ofBits .f32 0x7F800000#32 = (⊤ : EReal) := by simp [Ideal.ofBits, Ideal.ieee]

/-- An extended real whose absolute value max y (−y) is strictly below +∞ is a real number: at y = ⊥ and at
    y = ⊤ the absolute value is ⊤, which is not below itself. -/
private theorem real_of_abs_lt_top (y : EReal)
    (h : Ideal.cmp .olt (max y (-y)) (Ideal.ofBits .f32 0x7F800000#32) = 1#1) : ∃ r : ℝ, y = (r : EReal) := by
  rw [top_bits] at h
  induction y using EReal.rec with
  | bot => exact absurd h (by simp [Ideal.cmp])
  | coe r => exact ⟨r, rfl⟩
  | top => exact absurd h (by simp [Ideal.cmp])

/-- The shape of a scalar has exactly one index. -/
private instance scalar_idx_subsingleton : Subsingleton Cert.Pre_finite_inputs.S_.Idx := ⟨fun a b => funext fun d => d.elim0⟩

/-- "All entries have absolute value below +∞", for an array of any shape: if the conjunction over all axes of
    the entrywise comparisons |x i| < +∞ is 1, every comparison is 1, so every entry is a real number. Used at
    the signal's shape (16 × 4194304) and at the windows' shape (1024). -/
private theorem real_of_all {S : Shape} (hb : Cert.Pre_finite_inputs.S_.BroadcastsInDim S (![] : Fin 0 → Fin S.rank))
    {axes : List (Fin S.rank)} (hr : S.ReducesTo axes Cert.Pre_finite_inputs.S_)
    (hu : 0 < Cert.Pre_finite_inputs.S_.numel) (x : FVec Ideal S .f32)
    (h : Host.reduce IntOp.andi
        (cmpf .olt (Host.absf x)
          (broadcastInDim S ![] hb (constant Cert.Pre_finite_inputs.S_ .f32 0x7F800000#32)))
        (constantI Cert.Pre_finite_inputs.S_ 1 1#1) hr hu ix0 = 1#1) : Real' x := by
  intro i
  exact real_of_abs_lt_top (x i) (Host.reduce_andi_all _ _ hr hu ix0 h i)

/-- The signal (16 × 4194304): all absolute values below +∞ gives real entries. -/
private theorem real_of_all_signal [Cert.Pre_finite_inputs.Facts] (x : FVec Ideal Cert.Pre_finite_inputs.S16x4194304 .f32)
    (h : Host.reduce IntOp.andi
        (cmpf .olt (Host.absf x)
          (broadcastInDim Cert.Pre_finite_inputs.S16x4194304 ![] Cert.Pre_finite_inputs.Facts.bcast_S_S16x4194304
            (constant Cert.Pre_finite_inputs.S_ .f32 0x7F800000#32)))
        (constantI Cert.Pre_finite_inputs.S_ 1 1#1) Cert.Pre_finite_inputs.Facts.reducesTo_S16x4194304_S_d0_1
        Cert.Pre_finite_inputs.Facts.h_S_ ix0 = 1#1) : Real' x :=
  real_of_all _ _ _ x h

/-- A window (1024 taps): all absolute values below +∞ gives real entries. -/
private theorem real_of_all_window [Cert.Pre_finite_inputs.Facts] (a : FVec Ideal Cert.Pre_finite_inputs.S1024 .f32)
    (h : Host.reduce IntOp.andi
        (cmpf .olt (Host.absf a)
          (broadcastInDim Cert.Pre_finite_inputs.S1024 ![] Cert.Pre_finite_inputs.Facts.bcast_S_S1024
            (constant Cert.Pre_finite_inputs.S_ .f32 0x7F800000#32)))
        (constantI Cert.Pre_finite_inputs.S_ 1 1#1) Cert.Pre_finite_inputs.Facts.reducesTo_S1024_S_d0
        Cert.Pre_finite_inputs.Facts.h_S_ ix0 = 1#1) : Real' a :=
  real_of_all _ _ _ a h

/-- The precondition (signal finite ∧ first window finite ∧ second window finite, joined by and) being 1 gives
    real entries in all three arrays. -/
theorem real_of_finite_inputs [Cert.Pre_finite_inputs.Facts]
    (x : FVec Ideal Cert.Pre_finite_inputs.S16x4194304 .f32) (a s : FVec Ideal Cert.Pre_finite_inputs.S1024 .f32)
    (h : Cert.Pre_finite_inputs.fn (F := Ideal) x a s = fun _ => 1#1) : Real' x ∧ Real' a ∧ Real' s := by
  have h0 := congrFun h ix0
  unfold Cert.Pre_finite_inputs.fn at h0
  dsimp only at h0
  obtain ⟨hxa, hs⟩ := IntOp.andi_eq_one.1 h0
  obtain ⟨hx, ha⟩ := IntOp.andi_eq_one.1 hxa
  exact ⟨real_of_all_signal x hx, real_of_all_window a ha, real_of_all_window s hs⟩

end Cert.Ola
-- ==== Proof.RefDims.lean ====
/-
  The reference's gather and its accumulating scatter, read at an index.

  Both take an array of start positions holding 512·k + t at (k, t, 0). The gather's element (b, k, t) is then the
  signal at (b, 512·k + t): the start is read as a signed integer (it is below 2^31, so it reads as itself) and clamped
  to the last sample (it is at most 512·8190 + 1023 = 4194303, so the clamp does nothing), and the row coordinate is
  the offset coordinate. The scatter's update (b, k, t) lands on sample (b, 512·k + t), which is always inside the signal:
  the row b is the window coordinate on axis 0, the position 512·k + t the start on axis 1. So an update lands on a
  sample exactly when its row is the sample's and 512·k + t is the sample's position.
-/
import proofs.«107913_j91293824843827_2_alg».proof.Proof.Gen.ReferenceIdeal.Read
import proofs.«107913_j91293824843827_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- A natural number below 2^31, written as a 32-bit word, reads back as itself when the word is read signed. -/
private theorem ofNat32_toInt (n : Nat) (h : n < 2147483648) : (BitVec.ofNat 32 n).toInt = (n : Int) := by
  rw [BitVec.toInt_eq_toNat_of_lt (by rw [BitVec.toNat_ofNat]; omega), BitVec.toNat_ofNat]
  omega

/-- The gather's dimension numbers: rows are offsets, the sample axis is collapsed and indexed by the start positions. -/
abbrev dimsG := gather_S16x4194304_S8191x1024x1_S16x8191x1024_0_1_n_n_1_2_161
/-- The scatter's dimension numbers: rows are window coordinates, the sample axis is inserted and indexed by the start positions. -/
abbrev dimsS := scatter_S16x4194304_S8191x1024x1_S16x8191x1024_0_1_1_2

/-- The sample (b, 512·k + t) under frame element (b, k, t). -/
abbrev sampleUnder (j : S16x8191x1024.Idx) : S16x4194304.Idx :=
  ix2 (⟨(j 0).val, Cert.Ola.su_lt0 j⟩ : Fin 16) (⟨512 * (j 1).val + (j 2).val, by
      have h1 := Cert.Ola.su_lt1 j; have h2 := Cert.Ola.su_lt2 j; omega⟩ : Fin 4194304)

/-- The position (k, t, 0) at which frame element (b, k, t) reads its start. -/
abbrev startPos (j : S16x8191x1024.Idx) : S8191x1024x1.Idx :=
  ix3 (⟨(j 1).val, Cert.Ola.su_lt1 j⟩ : Fin 8191) (⟨(j 2).val, Cert.Ola.su_lt2 j⟩ : Fin 1024) (⟨0, Nat.one_pos⟩ : Fin 1)

section
variable (idx : IVec S8191x1024x1 32)
  (hidx : ∀ (k : Fin 8191) (t : Fin 1024) (z : Fin 1), idx (ix3 k t z) = BitVec.ofNat 32 (512 * k.val + t.val))
include hidx

/-- The start read signed at (k, t, 0) is 512·k + t. -/
theorem idx_startPos (j : S16x8191x1024.Idx) : (idx (startPos j)).toInt = ((512 * (j 1).val + (j 2).val : Nat) : Int) := by
  have h1 := Cert.Ola.su_lt1 j
  have h2 := Cert.Ola.su_lt2 j
  rw [hidx]
  exact ofNat32_toInt _ (by show 512 * (j 1).val + (j 2).val < 2147483648; omega)

/-- THE GATHER READ AT (b, k, t): the signal at (b, 512·k + t). -/
theorem gather_apply {α : Type} (x : S16x4194304.Idx → α) (j : S16x8191x1024.Idx) :
    Host.gather dimsG x idx j = x (sampleUnder j) := by
  have h1 := Cert.Ola.su_lt1 j
  have h2 := Cert.Ola.su_lt2 j
  unfold Host.gather
  congr 1
  funext a
  refine Fin.ext ?_
  match a with
  | ⟨0, _⟩ =>
    show dimsG.start j idx (0 : Fin 2) + dimsG.batchCoord j (0 : Fin 2) + dimsG.offCoord j (0 : Fin 2) = (j 0).val
    rw [GatherDims.batchCoord_eq_zero _ _ _ List.not_mem_nil]
    have hs : dimsG.start j idx (0 : Fin 2) = 0 := by
      unfold GatherDims.start
      rw [dif_neg (show (0 : Fin 2) ∉ dimsG.startIndexMap by decide)]
    have ho : dimsG.offCoord j (0 : Fin 2) = (j 0).val := by
      unfold GatherDims.offCoord
      rw [dif_pos (show (0 : Fin 2) ∈ dimsG.sKept by decide)]
      rfl
    rw [hs, ho]
    omega
  | ⟨1, _⟩ =>
    show dimsG.start j idx (1 : Fin 2) + dimsG.batchCoord j (1 : Fin 2) + dimsG.offCoord j (1 : Fin 2) = 512 * (j 1).val + (j 2).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ dimsG.startIndexMap from List.mem_singleton.mpr rfl)]
    have hsi : dimsG.siIdx j ⟨List.idxOf (1 : Fin 2) dimsG.startIndexMap,
        List.idxOf_lt_length_iff.2 (List.mem_singleton.mpr rfl)⟩ = startPos j := by
      funext b; refine Fin.ext ?_
      match b with
      | ⟨0, _⟩ => rfl
      | ⟨1, _⟩ => rfl
      | ⟨2, _⟩ => rfl
    rw [hsi, idx_startPos idx hidx j, Int.toNat_natCast]
    show min (512 * (j 1).val + (j 2).val) (4194304 - 1) = 512 * (j 1).val + (j 2).val
    omega

/-- On the row axis the scatter's start is 0 (the start positions do not index it) … -/
theorem dimsS_start0 (j : S16x8191x1024.Idx) : dimsS.start j idx (0 : Fin 2) = 0 := by
  unfold ScatterDims.start
  rw [dif_neg (show (0 : Fin 2) ∉ dimsS.scatterDimsToOperandDims by decide)]

/-- … and on the sample axis it is 512·k + t. -/
theorem dimsS_start1 (j : S16x8191x1024.Idx) :
    dimsS.start j idx (1 : Fin 2) = ((512 * (j 1).val + (j 2).val : Nat) : Int) := by
  unfold ScatterDims.start
  rw [dif_pos (show (1 : Fin 2) ∈ dimsS.scatterDimsToOperandDims from List.mem_singleton.mpr rfl)]
  have hsi : dimsS.siIdx j ⟨List.idxOf (1 : Fin 2) dimsS.scatterDimsToOperandDims,
      List.idxOf_lt_length_iff.2 (List.mem_singleton.mpr rfl)⟩ = startPos j := by
    funext b; refine Fin.ext ?_
    match b with
    | ⟨0, _⟩ => rfl
    | ⟨1, _⟩ => rfl
    | ⟨2, _⟩ => rfl
  rw [hsi]
  exact idx_startPos idx hidx j

omit hidx in
/-- The window coordinate on the row axis is the update's row … -/
theorem dimsS_window0 (j : S16x8191x1024.Idx) : dimsS.window j (0 : Fin 2) = (j 0).val := by
  unfold ScatterDims.window
  rw [dif_pos (show (0 : Fin 2) ∈ dimsS.sKept by decide)]
  rfl

omit hidx in
/-- … and on the sample axis, an inserted one, it is 0. -/
theorem dimsS_window1 (j : S16x8191x1024.Idx) : dimsS.window j (1 : Fin 2) = 0 := by
  unfold ScatterDims.window
  rw [dif_neg (show (1 : Fin 2) ∉ dimsS.sKept by decide)]

/-- THE SCATTER'S TARGET: update (b, k, t) lands on sample (b, 512·k + t), never outside the signal. -/
theorem resultIdx_eq (j : S16x8191x1024.Idx) : dimsS.resultIdx? j idx = some (sampleUnder j) := by
  have h0 := Cert.Ola.su_lt0 j
  have h1 := Cert.Ola.su_lt1 j
  have h2 := Cert.Ola.su_lt2 j
  have h : ∀ a, 0 ≤ dimsS.start j idx a + dimsS.window j a ∧
      dimsS.start j idx a + dimsS.window j a < S16x4194304.size a := by
    intro a
    match a with
    | ⟨0, _⟩ =>
      show 0 ≤ dimsS.start j idx (0 : Fin 2) + (dimsS.window j (0 : Fin 2) : Int) ∧
        dimsS.start j idx (0 : Fin 2) + (dimsS.window j (0 : Fin 2) : Int) < ((16 : Nat) : Int)
      rw [dimsS_start0 idx hidx j, dimsS_window0 j]
      omega
    | ⟨1, _⟩ =>
      show 0 ≤ dimsS.start j idx (1 : Fin 2) + (dimsS.window j (1 : Fin 2) : Int) ∧
        dimsS.start j idx (1 : Fin 2) + (dimsS.window j (1 : Fin 2) : Int) < ((4194304 : Nat) : Int)
      rw [dimsS_start1 idx hidx j, dimsS_window1 j]
      omega
  unfold ScatterDims.resultIdx?
  rw [dif_pos h]
  congr 1
  funext a
  refine Fin.ext ?_
  match a with
  | ⟨0, _⟩ =>
    show (dimsS.start j idx (0 : Fin 2) + (dimsS.window j (0 : Fin 2) : Int)).toNat = (j 0).val
    rw [dimsS_start0 idx hidx j, dimsS_window0 j]
    omega
  | ⟨1, _⟩ =>
    show (dimsS.start j idx (1 : Fin 2) + (dimsS.window j (1 : Fin 2) : Int)).toNat = 512 * (j 1).val + (j 2).val
    rw [dimsS_start1 idx hidx j, dimsS_window1 j]
    omega

/-- So an update lands on a sample exactly when its row is the sample's and 512·k + t is the sample's position. -/
theorem resultIdx_eq_some_iff (j : S16x8191x1024.Idx) (i : S16x4194304.Idx) :
    dimsS.resultIdx? j idx = some i ↔ Cert.Ola.lands j i := by
  rw [resultIdx_eq idx hidx j, Option.some.injEq]
  unfold Cert.Ola.lands
  constructor
  · intro h
    subst h
    exact ⟨rfl, rfl⟩
  · rintro ⟨e0, e1⟩
    funext a
    refine Fin.ext ?_
    match a with
    | ⟨0, _⟩ => exact e0
    | ⟨1, _⟩ => exact e1

end

end Cert.ReferenceIdeal.RefValue

end
-- ==== Proof.RefIndex.lean ====
/-
  The reference program's integer index arithmetic.

  The program builds, in 32-bit words, the array idx[k, t] = 512·k + t for k < 8191 and t < 1024: the frame number
  times the hop, plus the position in the frame. It then normalises a negative index by adding the signal length
  4194304, choosing between the two with a signed comparison against zero. Since 512·k + t ≤ 512·8190 + 1023 < 2^22,
  the word holding it is non-negative as a signed number, the comparison is false everywhere, and the normalised
  array is the array itself. The program does this twice (once for the read, once for the accumulation), and appends
  a trailing axis of extent 1 to each copy; all four arrays therefore hold the word of 512·k + t at (k, t).

  The product and the sum need no overflow argument: the map from naturals to 32-bit words respects + and ·, so
  word(k)·word(512) + word(t) = word(512·k + t) for all naturals. Only the sign test uses the bound.
-/
import proofs.«107913_j91293824843827_2_alg».proof.Proof.Gen.ReferenceIdeal.Read
import Idealize.ShloMosaic.Lib.ValueIdx

noncomputable section

namespace Cert.ReferenceIdeal.RefValue
open Cert.ReferenceIdeal Cert.ReferenceIdeal.Read Idealize.ShloMosaic Idealize.ShloMosaic.ValueIdx

/-- Multiplying the word of k by the word of 512 gives the word of 512·k (words form a quotient ring of ℕ). -/
private theorem word_mul (k : Nat) : IntOp.muli (BitVec.ofNat 32 k) 512#32 = BitVec.ofNat 32 (512 * k) := by
  show BitVec.ofNat 32 k * BitVec.ofNat 32 512 = BitVec.ofNat 32 (512 * k)
  rw [Nat.mul_comm 512 k, BitVec.ofNat_mul]

/-- Adding the words of m and t gives the word of m + t. -/
private theorem word_add (m t : Nat) :
    IntOp.addi (BitVec.ofNat 32 m) (BitVec.ofNat 32 t) = BitVec.ofNat 32 (m + t) := by
  show BitVec.ofNat 32 m + BitVec.ofNat 32 t = BitVec.ofNat 32 (m + t)
  rw [BitVec.ofNat_add]

/-- The word of a natural below 2^31 is not negative as a signed number: its signed value is the natural itself. -/
private theorem word_not_neg (n : Nat) (hn : n < 2147483648) :
    IntOp.cmpi .slt (BitVec.ofNat 32 n) 0#32 = 0#1 := by
  apply eq_zero_of_ne_one
  rw [IntOp.cmpi_slt]
  have h0 : (0#32 : BitVec 32).toInt = 0 := by decide
  have hN : (BitVec.ofNat 32 n).toNat = n := by rw [BitVec.toNat_ofNat]; omega
  have h1 : (BitVec.ofNat 32 n).toInt = (n : Int) := by
    rw [BitVec.toInt_eq_toNat_of_lt (by rw [hN]; omega), hN]
  rw [h0, h1]; omega

/-- Before normalisation: entry (k, t) of the index array is the word of 512·k + t. The row factor is read through
    the broadcasts at k, the column term at t. -/
private theorem val_v8_apply (k : Fin 8191) (t : Fin 1024) :
    val_main_v8 (F := Ideal) (ix2 k t) = BitVec.ofNat 32 (512 * k.val + t.val) := by
  rw [val_main_v8_apply, val_main_v6_apply, val_main_v3_apply, val_main_v2_apply, val_main_v0_apply,
    val_main_v1_apply, val_main_c_apply, val_main_v7_apply, val_main_v5_apply, val_main_v4_apply]
  show IntOp.addi (IntOp.muli (BitVec.ofNat 32 k.val) 512#32) (BitVec.ofNat 32 t.val) = _
  rw [word_mul, word_add]

/-- The first normalised index array: the sign test is false at every (k, t), so the entry is unchanged. -/
theorem val_v13_apply (k : Fin 8191) (t : Fin 1024) :
    val_main_v13 (F := Ideal) (ix2 k t) = BitVec.ofNat 32 (512 * k.val + t.val) := by
  have hk := k.isLt
  have ht := t.isLt
  rw [val_main_v13_apply, val_main_v10_apply, val_main_v9_apply, val_main_c_0_apply, val_v8_apply,
    word_not_neg _ (by omega), select_zero]

/-- The second normalised index array, built the same way. -/
theorem val_v27_apply (k : Fin 8191) (t : Fin 1024) :
    val_main_v27 (F := Ideal) (ix2 k t) = BitVec.ofNat 32 (512 * k.val + t.val) := by
  have hk := k.isLt
  have ht := t.isLt
  rw [val_main_v27_apply, val_main_v24_apply, val_main_v23_apply, val_main_c_2_apply, val_v8_apply,
    word_not_neg _ (by omega), select_zero]

/-- The first array with a trailing axis of extent 1: entry (k, t, z) is entry (k, t). -/
theorem val_v14_apply (k : Fin 8191) (t : Fin 1024) (z : Fin 1) :
    val_main_v14 (F := Ideal) (ix3 k t z) = BitVec.ofNat 32 (512 * k.val + t.val) := by
  rw [val_main_v14_apply]
  exact val_v13_apply k t

/-- The second array with a trailing axis of extent 1: entry (k, t, z) is entry (k, t). -/
theorem val_v28_apply (k : Fin 8191) (t : Fin 1024) (z : Fin 1) :
    val_main_v28 (F := Ideal) (ix3 k t z) = BitVec.ofNat 32 (512 * k.val + t.val) := by
  rw [val_main_v28_apply]
  exact val_v27_apply k t

end Cert.ReferenceIdeal.RefValue

end
-- ==== Proof.RefValue.lean ====
/-
  The reference's whole result, as a sum over the updates that land on each sample.

  The reference gathers, for every frame element (b, k, t), the sample (b, 512·k + t), multiplies it by the first
  window's tap t and then by the second's, and adds every such product into a zero array at the sample it was taken
  from. Read at a sample this is zero plus the sum, over the frame elements (b, k, t) whose sample it is, of
  x[b, 512·k + t] · a[t] · s[t]: the overlap-add written as a sum of the covering frames' terms.
-/
import proofs.«107913_j91293824843827_2_alg».proof.Proof.RefDims
import proofs.«107913_j91293824843827_2_alg».proof.Proof.RefIndex
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The first window's tap read by frame element (b, k, t) is tap t … -/
theorem idx_window_a (j : S16x8191x1024.Idx) :
    idx_main_v16 (idx_main_v17 j) = ix1 (⟨(j 2).val, Cert.Ola.su_lt2 j⟩ : Fin 1024) := by
  funext d
  match d with
  | ⟨0, _⟩ => rfl

/-- … and so is the second window's. -/
theorem idx_window_s (j : S16x8191x1024.Idx) :
    idx_main_v20 (idx_main_v21 j) = ix1 (⟨(j 2).val, Cert.Ola.su_lt2 j⟩ : Fin 1024) := by
  funext d
  match d with
  | ⟨0, _⟩ => rfl

/-- The update at frame element (b, k, t): the sample under it times the two windows' taps at t. -/
theorem update_eq_term (x : FVec Ideal S16x4194304 .f32) (a s : FVec Ideal S1024 .f32) (j : S16x8191x1024.Idx) :
    val_main_v22 (F := Ideal) x a s j = Cert.Ola.term x a s j := by
  rw [val_main_v22_apply, val_main_v18_apply, val_main_v21_apply, val_main_v20_apply, val_main_v17_apply,
    val_main_v16_apply, idx_window_a, idx_window_s]
  unfold val_main_v15
  rw [gather_apply _ val_v14_apply x j]
  simp only [Ideal.mulf_def]
  rfl

/-- THE REFERENCE'S RESULT: at every sample, zero plus the sum of the terms of the updates that land on it. -/
theorem ref_eq_olaSum (x : FVec Ideal S16x4194304 .f32) (a s : FVec Ideal S1024 .f32) :
    Cert.ReferenceIdeal.Read.val_main_v29 (F := Ideal) x a s = Cert.Ola.olaSum x a s := by
  funext i
  unfold val_main_v29 Host.scatterAdd
  rw [Ideal.hostScatterAdd_def]
  unfold Ideal.hostScatterAdd Cert.Ola.olaSum
  have h0 : val_main_v19 (F := Ideal) i = 0 := by
    rw [val_main_v19_apply, val_main_cst_apply]
    exact Ideal.ofBits_zero_f32
  rw [h0]
  congr 1
  exact Finset.sum_congr (Finset.filter_congr fun j _ => resultIdx_eq_some_iff _ val_v28_apply j i)
    fun j _ => update_eq_term x a s j

end Cert.ReferenceIdeal.RefValue

end
-- ==== Proof.KBlock.lean ====
/-
  What one grid point of the kernel leaves in its output block, entry by entry, on the extended reals.

  The body first stores x·w over the whole 16×131072 block (w the 512-periodic weight tile); at the first grid point it
  then overwrites columns [0, 512) with x·first, at the last one columns [130560, 131072) with x·last. A later store
  hides an earlier one, so entry (r, q) of the block is x[r, q] times: first[q] on the first point's first 512
  columns, last[q − 130560] on the last point's last 512 columns, and w[q] everywhere else.
-/
import proofs.«107913_j91293824843827_2_alg».proof.Proof.Gen.KernelIdeal.Frame
import proofs.«107913_j91293824843827_2_alg».proof.Proof.Spec
import Idealize.ShloMosaic.Lib.Pipeline.Value
import Idealize.ShloMosaic.Lib.ValueIdx
import Idealize.ShloMosaic.Lib.ValueLayout
import Idealize.ShloMosaic.Lib.WritesUnit

set_option maxRecDepth 16384

noncomputable section

namespace Cert.Ola

open Idealize.ShloMosaic

/-- On the first 512 samples the weight is the product window at the sample. -/
theorem weight_first (a s : SW.Idx → EReal) (n : Fin 4194304) (h : n.val < 512) :
    weight a s n = pw a s ⟨n.val, by omega⟩ := by
  unfold weight; rw [dif_pos h]

/-- On the last 512 samples it is the product window at the sample's position in the last frame. -/
theorem weight_last (a s : SW.Idx → EReal) (n : Fin 4194304) (h : 4193792 ≤ n.val) :
    weight a s n = pw a s ⟨n.val - 4193280, by have := n.isLt; omega⟩ := by
  unfold weight; rw [dif_neg (by omega), dif_pos h]

/-- Elsewhere it is the sum of the product window at the two covering positions. -/
theorem weight_mid (a s : SW.Idx → EReal) (n : Fin 4194304) (h1 : 512 ≤ n.val) (h2 : n.val < 4193792) :
    weight a s n = pw a s ⟨n.val % 512, by omega⟩ + pw a s ⟨n.val % 512 + 512, by omega⟩ := by
  unfold weight; rw [dif_neg (by omega), dif_neg (by omega)]

end Cert.Ola

namespace Cert.KernelIdeal.KBlock

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-! ## The three stores' values at an entry -/

/-- The whole-block store's value at (r, q): the block's entry times the weight tile's entry in column q. -/
theorem pay1_apply (v0 : Vec Ideal S16x131072 .f32) (v1 : Vec Ideal S1x131072 .f32) (r : Fin 16) (q : Fin 131072) :
    k0_pay1 v0 v1 (ix2 r q) = v0 (ix2 r q) * v1 (ix2 (0 : Fin 1) q) := by
  unfold k0_pay1
  refine (mulf_apply _ _ _).trans ?_
  refine congrArg (v0 (ix2 r q) * ·) ?_
  refine (broadcastTo_1b_ab_apply _ _ r q).trans ?_
  rw [shapeCast_self]

/-- The first point's 512-column store at (r, q): the slice's entry times the first-edge vector's entry. -/
theorem pay2_apply (v12 : Vec Ideal S16x512 .f32) (v13 : Vec Ideal S1x512 .f32) (r : Fin 16) (q : Fin 512) :
    k0_pay2 v12 v13 (ix2 r q) = v12 (ix2 r q) * v13 (ix2 (0 : Fin 1) q) := by
  unfold k0_pay2
  refine (mulf_apply _ _ _).trans ?_
  refine congrArg (v12 (ix2 r q) * ·) ?_
  refine (broadcastTo_1b_ab_apply _ _ r q).trans ?_
  rw [shapeCast_self]

/-- The last point's 512-column store at (r, q): the slice's entry times the last-edge vector's entry. -/
theorem pay3_apply (v12 : Vec Ideal S16x512 .f32) (v13 : Vec Ideal S1x512 .f32) (r : Fin 16) (q : Fin 512) :
    k0_pay3 v12 v13 (ix2 r q) = v12 (ix2 r q) * v13 (ix2 (0 : Fin 1) q) := by
  unfold k0_pay3
  refine (mulf_apply _ _ _).trans ?_
  refine congrArg (v12 (ix2 r q) * ·) ?_
  refine (broadcastTo_1b_ab_apply _ _ r q).trans ?_
  rw [shapeCast_self]

/-! ## The output block per control case, at an entry -/

section Cases
variable (c : Dev nD) (i : grid0.Coords) (arg1 : Memref sig .tc .vmem S16x131072 .f32) (harg1 : arg1.IsWhole) (arg2 : Memref sig .tc .vmem S1x131072 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S16x131072 .f32) (harg5 : arg5.IsWhole)
variable (x0 : Vec Ideal S16x131072 .f32) (x1 : Vec Ideal S1x131072 .f32) (x2 : Vec Ideal S1x512 .f32) (x3 : Vec Ideal S1x512 .f32)

/-- An interior point (neither first nor last): every entry is the whole-block store's. -/
theorem outB_apply (hc0 : ¬cond0_0 i) (hc1 : ¬cond0_1 i) (r : Fin 16) (q : Fin 131072) :
    out0_B_4 c i arg1 harg1 arg2 harg2 arg3 harg3 arg4 harg4 arg5 harg5 hc0 hc1 x0 x1 x2 x3 (ix2 r q) = x0 (ix2 r q) * x1 (ix2 (0 : Fin 1) q) := by
  unfold out0_B_4
  rw [View.read_writes_junk_eq_canon]
  unfold kernelRun0_B
  dsimp only
  rw [View.canon_unit_zero hz]
  simp only [View.readAt_eq_ld, harg1.read_unread, harg2.read_unread, View.ld_unit_zero (S := S16x131072) hz,
    View.ld_unit_zero (S := S1x131072) hz]
  exact pay1_apply x0 x1 r q

/-- The first point, first 512 columns: the later, narrower store's value. -/
theorem outA_lo (hc0 : cond0_0 i) (hc1 : ¬cond0_1 i) (r : Fin 16) (q : Fin 131072) (hq : q.val < 512) :
    out0_A_4 c i arg1 harg1 arg2 harg2 arg3 harg3 arg4 harg4 arg5 harg5 hc0 hc1 x0 x1 x2 x3 (ix2 r q) = x0 (ix2 r q) * x2 (ix2 (0 : Fin 1) (⟨q.val, hq⟩ : Fin 512)) := by
  unfold out0_A_4 kernelRun0_A
  dsimp only
  refine (View.read_writes_cons_unit_of_mem VO0_4 _ _ _ _ (ix2 r q) (ix2 r (⟨q.val, hq⟩ : Fin 512)) rfl
    (fun a => match a with | ⟨0, _⟩ => (Nat.zero_add _).symm | ⟨1, _⟩ => (Nat.zero_add _).symm)).trans ?_
  simp only [View.readAt_eq_ld, harg1.read_unread, harg3.read_unread, View.ld_unit_zero (S := S1x512) hz]
  refine (pay2_apply _ _ r ⟨q.val, hq⟩).trans ?_
  refine congrArg (fun k => x0 k * x2 (ix2 (0 : Fin 1) (⟨q.val, hq⟩ : Fin 512))) ?_
  funext a; apply Fin.ext
  match a with
  | ⟨0, _⟩ => show 0 + 1 * r.val = r.val; omega
  | ⟨1, _⟩ => show 0 + 1 * q.val = q.val; omega

/-- The first point, the other columns: the whole-block store's value. -/
theorem outA_hi (hc0 : cond0_0 i) (hc1 : ¬cond0_1 i) (r : Fin 16) (q : Fin 131072) (hq : 512 ≤ q.val) :
    out0_A_4 c i arg1 harg1 arg2 harg2 arg3 harg3 arg4 harg4 arg5 harg5 hc0 hc1 x0 x1 x2 x3 (ix2 r q) = x0 (ix2 r q) * x1 (ix2 (0 : Fin 1) q) := by
  unfold out0_A_4 kernelRun0_A
  dsimp only
  refine (View.read_writes_cons_unit_of_not_mem VO0_4 _ _ _ _ (ix2 r q) rfl (1 : Fin 2)
    (Or.inr (by show 0 + 512 ≤ q.val; omega))).trans ?_
  refine (View.read_writes_cons_unit_of_mem VO0_4 _ _ _ _ (ix2 r q) (ix2 r q) rfl
    (fun a => match a with | ⟨0, _⟩ => (Nat.zero_add _).symm | ⟨1, _⟩ => (Nat.zero_add _).symm)).trans ?_
  simp only [View.readAt_eq_ld, harg1.read_unread, harg2.read_unread, View.ld_unit_zero (S := S16x131072) hz,
    View.ld_unit_zero (S := S1x131072) hz]
  exact pay1_apply x0 x1 r q

/-- The last point, all but the last 512 columns: the whole-block store's value. -/
theorem outC_lo (hc0 : ¬cond0_0 i) (hc1 : cond0_1 i) (r : Fin 16) (q : Fin 131072) (hq : q.val < 130560) :
    out0_C_4 c i arg1 harg1 arg2 harg2 arg3 harg3 arg4 harg4 arg5 harg5 hc0 hc1 x0 x1 x2 x3 (ix2 r q) = x0 (ix2 r q) * x1 (ix2 (0 : Fin 1) q) := by
  unfold out0_C_4 kernelRun0_C
  dsimp only
  refine (View.read_writes_cons_unit_of_not_mem VO0_4 _ _ _ _ (ix2 r q) rfl (1 : Fin 2)
    (Or.inl (by show q.val < 130560; omega))).trans ?_
  refine (View.read_writes_cons_unit_of_mem VO0_4 _ _ _ _ (ix2 r q) (ix2 r q) rfl
    (fun a => match a with | ⟨0, _⟩ => (Nat.zero_add _).symm | ⟨1, _⟩ => (Nat.zero_add _).symm)).trans ?_
  simp only [View.readAt_eq_ld, harg1.read_unread, harg2.read_unread, View.ld_unit_zero (S := S16x131072) hz,
    View.ld_unit_zero (S := S1x131072) hz]
  exact pay1_apply x0 x1 r q

/-- The last point, last 512 columns: the later, narrower store's value. -/
theorem outC_hi (hc0 : ¬cond0_0 i) (hc1 : cond0_1 i) (r : Fin 16) (q : Fin 131072) (hq : 130560 ≤ q.val) :
    out0_C_4 c i arg1 harg1 arg2 harg2 arg3 harg3 arg4 harg4 arg5 harg5 hc0 hc1 x0 x1 x2 x3 (ix2 r q)
      = x0 (ix2 r q) * x3 (ix2 (0 : Fin 1) (⟨q.val - 130560, by have := q.isLt; omega⟩ : Fin 512)) := by
  have hq' : q.val - 130560 < 512 := by have := q.isLt; omega
  have hsum : q.val = 130560 + (q.val - 130560) := by omega
  have hx : ∀ a : Fin 2, ((ix2 r q : S16x131072.Idx) a).val
      = (![0, 130560] : Fin 2 → ℕ) a + ((ix2 r (⟨q.val - 130560, hq'⟩ : Fin 512) : S16x512.Idx) a).val :=
    Fin.forall_fin_two.mpr ⟨(Nat.zero_add r.val).symm, hsum⟩
  unfold out0_C_4 kernelRun0_C
  dsimp only
  refine (View.read_writes_cons_unit_of_mem VO0_4 _ _ _ _ (ix2 r q) (ix2 r (⟨q.val - 130560, hq'⟩ : Fin 512)) rfl
    hx).trans ?_
  simp only [View.readAt_eq_ld, harg1.read_unread, harg4.read_unread, View.ld_unit_zero (S := S1x512) hz]
  refine (pay3_apply _ _ r ⟨q.val - 130560, hq'⟩).trans ?_
  refine congrArg (fun k => x0 k * x3 (ix2 (0 : Fin 1) (⟨q.val - 130560, hq'⟩ : Fin 512))) ?_
  funext a; apply Fin.ext
  revert a
  refine Fin.forall_fin_two.mpr ⟨?_, ?_⟩
  · show 0 + 1 * r.val = r.val; omega
  · show 130560 + 1 * (q.val - 130560) = q.val; omega

end Cases

end Cert.KernelIdeal.KBlock

end
-- ==== Proof.KHost.lean ====
/-
  The weights the kernel's windows read, before the kernel runs.

  From the two windows a, s (1024 taps each) the operations ahead of the kernel form the product window
  p[t] = a[t] · s[t] and three rows from it:
    • the first half of p as a row of 512 entries: entry q is p[q];
    • the second half of p as a row of 512 entries: entry q is p[q + 512];
    • the sum of the two halves, p[r] + p[r + 512] for r < 512, laid out 256 times in a row of 131072 entries:
      entry q is p[q % 512] + p[q % 512 + 512]  (a row of 131072 = 256 · 512 entries read as 256 rows of 512, each
      row a copy of the one row of sums, so entry q sits in row q / 512 at column q % 512).
  Each row is first written as a term over arbitrary windows and read entry by entry (a slice shifts the position by
  its offset; a change of shape keeps the row-major position; a broadcast repeats the one row), then the array the
  operations leave is shown to be that term at the launch contents of the two windows.
-/
import proofs.«107913_j91293824843827_2_alg».proof.Proof.Gen.KernelIdeal.Frame
import proofs.«107913_j91293824843827_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KHost
open Cert.KernelIdeal Cert.KernelIdeal.Gen Idealize.ShloMosaic Idealize.ShloMosaic.TcCoe Idealize.SL.Sem Idealize.ShloMosaic.ValueIdx Cert.Ola

/-! ## The three rows as terms over arbitrary windows -/

/-- The first half of the product window a · s, as one row of 512 entries. -/
def firstRow (a s : FVec Ideal S1024 .f32) : FVec Ideal S1x512 .f32 :=
  shapeCast S1x512 (extractStridedSlice S512 ![0] (mulf a s) slices_S1024_S512_0) shapeCasts_S512_S1x512

/-- The second half of the product window a · s, as one row of 512 entries. -/
def lastRow (a s : FVec Ideal S1024 .f32) : FVec Ideal S1x512 .f32 :=
  shapeCast S1x512 (extractStridedSlice S512 ![512] (mulf a s) slices_S1024_S512_512) shapeCasts_S512_S1x512

/-- The sum of the two halves of the product window a · s, repeated 256 times along one row of 131072 entries. -/
def tileRow (a s : FVec Ideal S1024 .f32) : FVec Ideal S1x131072 .f32 :=
  shapeCast S1x131072
    (broadcastInDim S1x1x256x512 ![0, 1, 2, 3] bcast_S1x1x1x512_S1x1x256x512_0_1_2_3
      (shapeCast S1x1x1x512
        (shapeCast S1x512
          (addf (extractStridedSlice S512 ![0] (mulf a s) slices_S1024_S512_0)
                (extractStridedSlice S512 ![512] (mulf a s) slices_S1024_S512_512))
          shapeCasts_S512_S1x512)
        shapeCasts_S1x512_S1x1x1x512))
    shapeCasts_S1x1x256x512_S1x131072

/-! ## The rows read entry by entry -/

/-- A run of 512 entries of a 1024-vector starting at `o`, read at `q`: the vector at `o + q`. -/
theorem half_apply (o : Nat) (p : FVec Ideal S1024 .f32) (h : S1024.Slices ![o] S512) (q : Fin 512) (k : Fin 1024)
    (hk : k.val = o + q.val) :
    extractStridedSlice S512 ![o] p h (ix1 q) = p (ix1 k) :=
  extractStridedSlice_apply _ p h (ix1 q) (ix1 k) (fun ax => by
    match ax with
    | ⟨0, _⟩ => exact hk)

/-- Entry `q` of the first row is the product window at tap `q`. -/
theorem firstRow_apply (a s : FVec Ideal S1024 .f32) (q : Fin 512) :
    firstRow a s (ix2 (0 : Fin 1) q) = pw a s ⟨q.val, by omega⟩ := by
  unfold firstRow
  -- the row's entry q is the half's entry q
  refine (shapeCast_a_1a_apply _ shapeCasts_S512_S1x512 (0 : Fin 1) q).trans ?_
  -- the half starts at tap 0
  refine (half_apply 0 (mulf a s) slices_S1024_S512_0 q ⟨q.val, by omega⟩ (Nat.zero_add _).symm).trans ?_
  rfl

/-- Entry `q` of the last row is the product window at tap `q + 512`. -/
theorem lastRow_apply (a s : FVec Ideal S1024 .f32) (q : Fin 512) :
    lastRow a s (ix2 (0 : Fin 1) q) = pw a s ⟨q.val + 512, by omega⟩ := by
  unfold lastRow
  refine (shapeCast_a_1a_apply _ shapeCasts_S512_S1x512 (0 : Fin 1) q).trans ?_
  -- the half starts at tap 512
  refine (half_apply 512 (mulf a s) slices_S1024_S512_512 q ⟨q.val + 512, by omega⟩ (Nat.add_comm _ _)).trans ?_
  rfl

/-- Entry `q` of the tiled row is the sum of the product window at taps `q % 512` and `q % 512 + 512`. -/
theorem tileRow_apply (a s : FVec Ideal S1024 .f32) (q : Fin 131072) :
    tileRow a s (ix2 (0 : Fin 1) q)
      = pw a s ⟨q.val % 512, by omega⟩ + pw a s ⟨q.val % 512 + 512, by omega⟩ := by
  unfold tileRow
  have hq := q.isLt
  -- position q of the flat row is row q / 512, column q % 512 of the 256 × 512 tile: 512 · (q / 512) + q % 512 = q
  refine (shapeCast_apply _ shapeCasts_S1x1x256x512_S1x131072 (ix2 (0 : Fin 1) q)
    (ix4 (0 : Fin 1) (0 : Fin 1) (⟨q.val / 512, by omega⟩ : Fin 256) (⟨q.val % 512, by omega⟩ : Fin 512)) (by
      rw [Shape.rowMajor_val_four, Shape.rowMajor_val_two]
      show ((0 * 1 + 0) * 256 + q.val / 512) * 512 + q.val % 512 = 0 * 131072 + q.val
      omega)).trans ?_
  -- every row of the tile is the one row of sums: the row coordinate is forgotten, the column kept
  refine (broadcastInDim_apply _ bcast_S1x1x1x512_S1x1x256x512_0_1_2_3 _ _
    (ix4 (0 : Fin 1) (0 : Fin 1) (0 : Fin 1) (⟨q.val % 512, by omega⟩ : Fin 512)) (fun ax => by
      match ax with
      | ⟨0, _⟩ => show 0 = if (1 : Nat) = 1 then 0 else _; rw [if_pos rfl]
      | ⟨1, _⟩ => show 0 = if (1 : Nat) = 1 then 0 else _; rw [if_pos rfl]
      | ⟨2, _⟩ => show 0 = if (1 : Nat) = 1 then 0 else _; rw [if_pos rfl]
      | ⟨3, _⟩ => show q.val % 512 = if (512 : Nat) = 1 then 0 else q.val % 512; rw [if_neg (by decide)])).trans ?_
  -- the unit axes added in front do not move the position
  refine (shapeCast_apply _ shapeCasts_S1x512_S1x1x1x512 _
    (ix2 (0 : Fin 1) (⟨q.val % 512, by omega⟩ : Fin 512)) (by
      rw [Shape.rowMajor_val_four, Shape.rowMajor_val_two]
      show 0 * 512 + q.val % 512 = ((0 * 1 + 0) * 1 + 0) * 512 + q.val % 512
      omega)).trans ?_
  refine (shapeCast_a_1a_apply _ shapeCasts_S512_S1x512 (0 : Fin 1) (⟨q.val % 512, by omega⟩ : Fin 512)).trans ?_
  -- the sum of the two halves, entry by entry
  refine (addf_apply _ _ _).trans ?_
  refine congrArg₂ (· + ·) ?_ ?_
  · refine (half_apply 0 (mulf a s) slices_S1024_S512_0 _ ⟨q.val % 512, by omega⟩ (Nat.zero_add _).symm).trans ?_
    rfl
  · refine (half_apply 512 (mulf a s) slices_S1024_S512_512 _ ⟨q.val % 512 + 512, by omega⟩ (Nat.add_comm _ _)).trans ?_
    rfl

/-! ## The arrays the kernel finds -/

variable (m : (ℓ : Loc nD τ sig) → Buf (Elt Ideal) ℓ)

/-- The array of the first 512 weights, when the kernel is entered, is the first row over the launch windows. -/
theorem V_first_eq (c : Dev nD) :
    (V m c main_call0_v6 : S1x512.Idx → EReal)
      = firstRow (m ((c : Thread nD τ).loc main_arg1)) (m ((c : Thread nD τ).loc main_arg2)) := by
  dsimp only [Gen.V, Gen.hostOps0]
  after_results
  rfl

/-- The array of the last 512 weights, when the kernel is entered, is the last row over the launch windows. -/
theorem V_last_eq (c : Dev nD) :
    (V m c main_call0_v8 : S1x512.Idx → EReal)
      = lastRow (m ((c : Thread nD τ).loc main_arg1)) (m ((c : Thread nD τ).loc main_arg2)) := by
  dsimp only [Gen.V, Gen.hostOps0]
  after_results
  rfl

/-- The array of the interior weights, when the kernel is entered, is the tiled row over the launch windows. -/
theorem V_tile_eq (c : Dev nD) :
    (V m c main_call0_v11 : S1x131072.Idx → EReal)
      = tileRow (m ((c : Thread nD τ).loc main_arg1)) (m ((c : Thread nD τ).loc main_arg2)) := by
  dsimp only [Gen.V, Gen.hostOps0]
  after_results
  rfl

/-- Entry `q` of the interior weights: the product window at `q % 512` plus the product window at `q % 512 + 512`. -/
theorem V_tile (c : Dev nD) (q : Fin 131072) :
    (V m c main_call0_v11 : S1x131072.Idx → EReal) (ix2 (0 : Fin 1) q)
      = pw (m ((c : Thread nD τ).loc main_arg1)) (m ((c : Thread nD τ).loc main_arg2)) ⟨q.val % 512, by omega⟩
        + pw (m ((c : Thread nD τ).loc main_arg1)) (m ((c : Thread nD τ).loc main_arg2)) ⟨q.val % 512 + 512, by omega⟩ :=
  (congrFun (V_tile_eq m c) _).trans (tileRow_apply _ _ q)

/-- Entry `q` of the first weights: the product window at `q`. -/
theorem V_first (c : Dev nD) (q : Fin 512) :
    (V m c main_call0_v6 : S1x512.Idx → EReal) (ix2 (0 : Fin 1) q)
      = pw (m ((c : Thread nD τ).loc main_arg1)) (m ((c : Thread nD τ).loc main_arg2)) ⟨q.val, by omega⟩ :=
  (congrFun (V_first_eq m c) _).trans (firstRow_apply _ _ q)

/-- Entry `q` of the last weights: the product window at `q + 512`. -/
theorem V_last (c : Dev nD) (q : Fin 512) :
    (V m c main_call0_v8 : S1x512.Idx → EReal) (ix2 (0 : Fin 1) q)
      = pw (m ((c : Thread nD τ).loc main_arg1)) (m ((c : Thread nD τ).loc main_arg2)) ⟨q.val + 512, by omega⟩ :=
  (congrFun (V_last_eq m c) _).trans (lastRow_apply _ _ q)

end Cert.KernelIdeal.KHost

end
-- ==== Proof.KValue.lean ====
/-
  The kernel's result array, as one function of the signal and the two windows.

  Grid point t (t < 32) works on columns [131072·t, 131072·(t+1)) of the signal: its input block's entry (r, q) is
  x[r, 131072·t + q], and the three weight windows are the same whole rows at every point. By the entry-by-entry
  reading of each control case, entry (r, q) of what point t writes back is x[r, n]·weight[n] at n = 131072·t + q:
  131072 is a multiple of 512, so n % 512 = q % 512 and the periodic tile's entry is the interior weight; the first
  point's first 512 columns are the samples n < 512; the last point's columns from 130560 on are the samples
  n ≥ 4193792, at position q − 130560 + 512 = n − 4193280 of the last frame. The 32 blocks tile the array, so the
  array ends holding x·weight everywhere.
-/
import proofs.«107913_j91293824843827_2_alg».proof.Proof.Gen.KernelIdeal.Value
import proofs.«107913_j91293824843827_2_alg».proof.Proof.Spec
import proofs.«107913_j91293824843827_2_alg».proof.Proof.KBlock
import proofs.«107913_j91293824843827_2_alg».proof.Proof.KHost
import Idealize.ShloMosaic.Lib.Pipeline.Value
import Idealize.ShloMosaic.Lib.ValueIdx

set_option maxRecDepth 16384

noncomputable section

namespace Cert.Ola

open Idealize.ShloMosaic

/-- The weight on the first 512 samples, the tap named by its value. -/
theorem weight_first' (a s : SW.Idx → EReal) (n : Fin 4194304) (k : Fin 1024) (h : n.val < 512) (hk : k.val = n.val) :
    weight a s n = pw a s k := by
  have hb : n.val < 1024 := by omega
  have e : k = ⟨n.val, hb⟩ := Fin.ext hk
  rw [e]; exact weight_first a s n h

/-- The weight on the last 512 samples, the tap named by its value. -/
theorem weight_last' (a s : SW.Idx → EReal) (n : Fin 4194304) (k : Fin 1024) (h : 4193792 ≤ n.val)
    (hk : k.val = n.val - 4193280) : weight a s n = pw a s k := by
  have hb : n.val - 4193280 < 1024 := by have := n.isLt; omega
  have e : k = ⟨n.val - 4193280, hb⟩ := Fin.ext hk
  rw [e]; exact weight_last a s n h

/-- The weight elsewhere, the two taps named by their values. -/
theorem weight_mid' (a s : SW.Idx → EReal) (n : Fin 4194304) (k1 k2 : Fin 1024) (h1 : 512 ≤ n.val) (h2 : n.val < 4193792)
    (hk1 : k1.val = n.val % 512) (hk2 : k2.val = n.val % 512 + 512) : weight a s n = pw a s k1 + pw a s k2 := by
  have hb1 : n.val % 512 < 1024 := by omega
  have hb2 : n.val % 512 + 512 < 1024 := by omega
  have e1 : k1 = ⟨n.val % 512, hb1⟩ := Fin.ext hk1
  have e2 : k2 = ⟨n.val % 512 + 512, hb2⟩ := Fin.ext hk2
  rw [e1, e2]; exact weight_mid a s n h1 h2

/-- The one-multiplication result at an entry given by its coordinates. -/
theorem olaMul_ix2 (x : SX.Idx → EReal) (a s : SW.Idx → EReal) (r : Fin 16) (n : Fin 4194304) :
    olaMul x a s (ValueIdx.ix2 r n) = x (ValueIdx.ix2 r n) * weight a s n := rfl

end Cert.Ola

namespace Cert.KernelIdeal.KValue

open Cert.KernelIdeal Cert.KernelIdeal.Gen Idealize.ShloMosaic Idealize.ShloMosaic.TcCoe Idealize.SL.Sem
open Idealize.ShloMosaic.ValueIdx Cert.Ola Cert.KernelIdeal.KBlock
open Idealize.ShloMosaic.Pipeline (Dat)

/-! ## One grid point, over arbitrary blocks -/

section Point
variable (X : SX.Idx → EReal) (a s : SW.Idx → EReal)
variable (c : Dev nD) (i : grid0.Coords) (arg1 : Memref sig .tc .vmem S16x131072 .f32) (harg1 : arg1.IsWhole) (arg2 : Memref sig .tc .vmem S1x131072 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S16x131072 .f32) (harg5 : arg5.IsWhole)
variable (x0 : Vec Ideal S16x131072 .f32) (x1 : Vec Ideal S1x131072 .f32) (x2 : Vec Ideal S1x512 .f32) (x3 : Vec Ideal S1x512 .f32)
variable (T : ℕ)
variable (h0 : ∀ (r : Fin 16) (q : Fin 131072) (n : Fin 4194304), n.val = T * 131072 + q.val → x0 (ix2 r q) = X (ix2 r n))
variable (h1 : ∀ q : Fin 131072, x1 (ix2 (0 : Fin 1) q) = pw a s ⟨q.val % 512, by omega⟩ + pw a s ⟨q.val % 512 + 512, by omega⟩)
variable (h2 : ∀ q : Fin 512, x2 (ix2 (0 : Fin 1) q) = pw a s ⟨q.val, by omega⟩)
variable (h3 : ∀ q : Fin 512, x3 (ix2 (0 : Fin 1) q) = pw a s ⟨q.val + 512, by omega⟩)
include h0 h1 h2 h3

/-- The first point (T = 0): entry (r, q) is x[r, q]·weight[q]. -/
theorem pointA (hT : T = 0) (hc0 : cond0_0 i) (hc1 : ¬cond0_1 i) (r : Fin 16) (q : Fin 131072) (n : Fin 4194304)
    (hn : n.val = T * 131072 + q.val) :
    out0_A_4 c i arg1 harg1 arg2 harg2 arg3 harg3 arg4 harg4 arg5 harg5 hc0 hc1 x0 x1 x2 x3 (ix2 r q) = olaMul X a s (ix2 r n) := by
  have hq := q.isLt
  rw [olaMul_ix2]
  by_cases hlo : q.val < 512
  · rw [outA_lo c i arg1 harg1 arg2 harg2 arg3 harg3 arg4 harg4 arg5 harg5 x0 x1 x2 x3 hc0 hc1 r q hlo, h0 r q n hn, h2 ⟨q.val, hlo⟩,
      weight_first' a s n ⟨q.val, by omega⟩ (by omega) (by show q.val = n.val; omega)]
  · rw [outA_hi c i arg1 harg1 arg2 harg2 arg3 harg3 arg4 harg4 arg5 harg5 x0 x1 x2 x3 hc0 hc1 r q (by omega), h0 r q n hn, h1 q,
      weight_mid' a s n ⟨q.val % 512, by omega⟩ ⟨q.val % 512 + 512, by omega⟩ (by omega) (by omega)
        (by show q.val % 512 = n.val % 512; omega) (by show q.val % 512 + 512 = n.val % 512 + 512; omega)]

/-- An interior point (0 < T < 31): entry (r, q) is x[r, n]·weight[n], n = 131072·T + q an interior sample. -/
theorem pointB (hT : 0 < T) (hT' : T < 31) (hc0 : ¬cond0_0 i) (hc1 : ¬cond0_1 i) (r : Fin 16) (q : Fin 131072)
    (n : Fin 4194304) (hn : n.val = T * 131072 + q.val) :
    out0_B_4 c i arg1 harg1 arg2 harg2 arg3 harg3 arg4 harg4 arg5 harg5 hc0 hc1 x0 x1 x2 x3 (ix2 r q) = olaMul X a s (ix2 r n) := by
  have hq := q.isLt
  rw [olaMul_ix2, outB_apply c i arg1 harg1 arg2 harg2 arg3 harg3 arg4 harg4 arg5 harg5 x0 x1 x2 x3 hc0 hc1 r q, h0 r q n hn, h1 q,
    weight_mid' a s n ⟨q.val % 512, by omega⟩ ⟨q.val % 512 + 512, by omega⟩ (by omega) (by omega)
      (by show q.val % 512 = n.val % 512; omega) (by show q.val % 512 + 512 = n.val % 512 + 512; omega)]

/-- The last point (T = 31): entry (r, q) is x[r, n]·weight[n], n = 4063232 + q. -/
theorem pointC (hT : T = 31) (hc0 : ¬cond0_0 i) (hc1 : cond0_1 i) (r : Fin 16) (q : Fin 131072) (n : Fin 4194304)
    (hn : n.val = T * 131072 + q.val) :
    out0_C_4 c i arg1 harg1 arg2 harg2 arg3 harg3 arg4 harg4 arg5 harg5 hc0 hc1 x0 x1 x2 x3 (ix2 r q) = olaMul X a s (ix2 r n) := by
  have hq := q.isLt
  rw [olaMul_ix2]
  by_cases hlo : q.val < 130560
  · rw [outC_lo c i arg1 harg1 arg2 harg2 arg3 harg3 arg4 harg4 arg5 harg5 x0 x1 x2 x3 hc0 hc1 r q hlo, h0 r q n hn, h1 q,
      weight_mid' a s n ⟨q.val % 512, by omega⟩ ⟨q.val % 512 + 512, by omega⟩ (by omega) (by omega)
        (by show q.val % 512 = n.val % 512; omega) (by show q.val % 512 + 512 = n.val % 512 + 512; omega)]
  · rw [outC_hi c i arg1 harg1 arg2 harg2 arg3 harg3 arg4 harg4 arg5 harg5 x0 x1 x2 x3 hc0 hc1 r q (by omega), h0 r q n hn, h3 ⟨q.val - 130560, by omega⟩,
      weight_last' a s n ⟨q.val - 130560 + 512, by omega⟩ (by omega) (by show q.val - 130560 + 512 = n.val - 4193280; omega)]

end Point

/-! ## The blocks the points read -/

variable (m : (ℓ : Loc nD τ sig) → Buf (Elt Ideal) ℓ) (ρ : Dev nD → PrngReg)

/-- The printed index maps, decided over the 32 grid points: the signal's and the result's block at point t is
    block (0, t); the three weight windows stay at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The signal's block at point t: entry (r, q) is the signal at (r, 131072·t + q). -/
theorem iblk0_apply (c : Dev nD) (t : Fin cfg0.N) (r : Fin 16) (q : Fin 131072) (n : Fin 4194304)
    (hn : n.val = t.val * 131072 + q.val) :
    iblk m c 0 t (ix2 r q) = m ((c : Thread nD τ).loc main_arg0) (ix2 r n) := by
  obtain ⟨e0, e1, -⟩ := idx_facts t
  unfold iblk
  rw [View.read_apply]
  show V m c main_arg0 _ = _
  rw [V_main_arg0]
  refine congrArg (m ((c : Thread nD τ).loc main_arg0)) ?_
  funext a; apply Fin.ext; revert a
  refine Fin.forall_fin_two.mpr ⟨?_, ?_⟩
  · show win0_0.index t (0 : Fin 2) * 16 + 1 * r.val = r.val; rw [e0]; omega
  · show win0_0.index t (1 : Fin 2) * 131072 + 1 * q.val = n.val; rw [e1, hn]; omega

/-- The interior-weight window's block at any point: the whole periodic tile. -/
theorem iblk1_apply (c : Dev nD) (t : Fin cfg0.N) (q : Fin 131072) :
    iblk m c 1 t (ix2 (0 : Fin 1) q)
      = pw (m ((c : Thread nD τ).loc main_arg1)) (m ((c : Thread nD τ).loc main_arg2)) ⟨q.val % 512, by omega⟩
        + pw (m ((c : Thread nD τ).loc main_arg1)) (m ((c : Thread nD τ).loc main_arg2)) ⟨q.val % 512 + 512, by omega⟩ := by
  obtain ⟨-, -, e0, e1, -⟩ := idx_facts t
  unfold iblk
  rw [View.read_apply]
  show (V m c main_call0_v11 : S1x131072.Idx → EReal) _ = _
  refine (congrArg (V m c main_call0_v11 : S1x131072.Idx → EReal) ?_).trans (KHost.V_tile m c q)
  funext a; apply Fin.ext; revert a
  refine Fin.forall_fin_two.mpr ⟨?_, ?_⟩
  · show win0_1.index t (0 : Fin 2) * 1 + 1 * 0 = 0; rw [e0]
  · show win0_1.index t (1 : Fin 2) * 131072 + 1 * q.val = q.val; rw [e1]; omega

/-- The first-edge window's block at any point: the first half of the product window. -/
theorem iblk2_apply (c : Dev nD) (t : Fin cfg0.N) (q : Fin 512) :
    iblk m c 2 t (ix2 (0 : Fin 1) q)
      = pw (m ((c : Thread nD τ).loc main_arg1)) (m ((c : Thread nD τ).loc main_arg2)) ⟨q.val, by omega⟩ := by
  obtain ⟨-, -, -, -, e0, e1, -⟩ := idx_facts t
  unfold iblk
  rw [View.read_apply]
  show (V m c main_call0_v6 : S1x512.Idx → EReal) _ = _
  refine (congrArg (V m c main_call0_v6 : S1x512.Idx → EReal) ?_).trans (KHost.V_first m c q)
  funext a; apply Fin.ext; revert a
  refine Fin.forall_fin_two.mpr ⟨?_, ?_⟩
  · show win0_2.index t (0 : Fin 2) * 1 + 1 * 0 = 0; rw [e0]
  · show win0_2.index t (1 : Fin 2) * 512 + 1 * q.val = q.val; rw [e1]; omega

/-- The last-edge window's block at any point: the second half of the product window. -/
theorem iblk3_apply (c : Dev nD) (t : Fin cfg0.N) (q : Fin 512) :
    iblk m c 3 t (ix2 (0 : Fin 1) q)
      = pw (m ((c : Thread nD τ).loc main_arg1)) (m ((c : Thread nD τ).loc main_arg2)) ⟨q.val + 512, by omega⟩ := by
  obtain ⟨-, -, -, -, -, -, e0, e1, -⟩ := idx_facts t
  unfold iblk
  rw [View.read_apply]
  show (V m c main_call0_v8 : S1x512.Idx → EReal) _ = _
  refine (congrArg (V m c main_call0_v8 : S1x512.Idx → EReal) ?_).trans (KHost.V_last m c q)
  funext a; apply Fin.ext; revert a
  refine Fin.forall_fin_two.mpr ⟨?_, ?_⟩
  · show win0_3.index t (0 : Fin 2) * 1 + 1 * 0 = 0; rw [e0]
  · show win0_3.index t (1 : Fin 2) * 512 + 1 * q.val = q.val; rw [e1]; omega

/-! ## What each point writes back, and the whole array -/

/-- The result as a function of the launch contents of the three arguments. -/
abbrev result (c : Dev nD) : SX.Idx → EReal :=
  olaMul (m ((c : Thread nD τ).loc main_arg0)) (m ((c : Thread nD τ).loc main_arg1)) (m ((c : Thread nD τ).loc main_arg2))

/-- WHAT POINT t WRITES BACK is block t of the result. -/
theorem flushed_eq (c : Dev nD) (t : Fin cfg0.N) :
    (dats m 0 c).flushed 4 t = ((cfg0.win 4).blk t).view.read (Elt Ideal) (result m c) := by
  have hN : t.val < 32 := lt_of_lt_of_eq t.isLt (show cfg0.N = 32 from N_0)
  obtain ⟨-, -, -, -, -, -, -, -, e0, e1⟩ := idx_facts t
  -- the array index of the block's entry j: row j₀, column 131072·t + j₁
  have hemb : ∀ (j : ((cfg0.win 4).xblock (grid0.coords t)).Idx) (hj0 : (j 0).val < 16) (n : Fin 4194304),
      n.val = t.val * 131072 + (j 1).val →
      ((cfg0.win 4).blk t).view.emb j = (ix2 (⟨(j 0).val, hj0⟩ : Fin 16) n : S16x4194304.Idx) := by
    intro j hj0 n hn
    funext a; apply Fin.ext; revert a
    refine Fin.forall_fin_two.mpr ⟨?_, ?_⟩
    · show win0_4.index t (0 : Fin 2) * 16 + 1 * (j 0).val = (j 0).val; rw [e0]; omega
    · show win0_4.index t (1 : Fin 2) * 131072 + 1 * (j 1).val = n.val; rw [e1, hn]; omega
  -- the block's entry j, by its coordinates
  have hxj : ∀ (j : ((cfg0.win 4).xblock (grid0.coords t)).Idx) (hj0 : (j 0).val < 16) (hj1 : (j 1).val < 131072),
      (cfg0.win 4).xinj (grid0.coords t) j
        = (ix2 (⟨(j 0).val, hj0⟩ : Fin 16) (⟨(j 1).val, hj1⟩ : Fin 131072) : S16x131072.Idx) := by
    intro j hj0 hj1
    funext a; apply Fin.ext; revert a
    exact Fin.forall_fin_two.mpr ⟨rfl, rfl⟩
  by_cases h0 : t.val % 32 = 0
  · have h1 : ¬t.val % 32 = 31 := by omega
    rw [Value.flushed4_A m c t h0 h1]
    funext j
    have hj0 : (j 0).val < 16 := ((cfg0.win 4).xinj (grid0.coords t) j 0).isLt
    have hj1 : (j 1).val < 131072 := ((cfg0.win 4).xinj (grid0.coords t) j 1).isLt
    rw [View.read_apply, cast_eq, hemb j hj0 ⟨t.val * 131072 + (j 1).val, by omega⟩ rfl]
    refine (congrArg (out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h))
      (iblk m c 0 t) (iblk m c 1 t) (iblk m c 2 t) (iblk m c 3 t)) (hxj j hj0 hj1)).trans ?_
    exact pointA (m ((c : Thread nD τ).loc main_arg0)) (m ((c : Thread nD τ).loc main_arg1)) (m ((c : Thread nD τ).loc main_arg2))
      c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) t.val
      (fun r q n hn => iblk0_apply m c t r q n hn) (fun q => iblk1_apply m c t q) (fun q => iblk2_apply m c t q)
      (fun q => iblk3_apply m c t q) (by omega) ((hcond0_0 t).mpr h0) (fun h => h1 ((hcond0_1 t).mp h))
      ⟨(j 0).val, hj0⟩ ⟨(j 1).val, hj1⟩ ⟨t.val * 131072 + (j 1).val, by omega⟩ rfl
  · by_cases h1 : t.val % 32 = 31
    · rw [Value.flushed4_C m c t h0 h1]
      funext j
      have hj0 : (j 0).val < 16 := ((cfg0.win 4).xinj (grid0.coords t) j 0).isLt
      have hj1 : (j 1).val < 131072 := ((cfg0.win 4).xinj (grid0.coords t) j 1).isLt
      rw [View.read_apply, cast_eq, hemb j hj0 ⟨t.val * 131072 + (j 1).val, by omega⟩ rfl]
      refine (congrArg (out0_C_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1)
        (iblk m c 0 t) (iblk m c 1 t) (iblk m c 2 t) (iblk m c 3 t)) (hxj j hj0 hj1)).trans ?_
      exact pointC (m ((c : Thread nD τ).loc main_arg0)) (m ((c : Thread nD τ).loc main_arg1)) (m ((c : Thread nD τ).loc main_arg2))
        c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) t.val
        (fun r q n hn => iblk0_apply m c t r q n hn) (fun q => iblk1_apply m c t q) (fun q => iblk2_apply m c t q)
        (fun q => iblk3_apply m c t q) (by omega) (fun h => h0 ((hcond0_0 t).mp h)) ((hcond0_1 t).mpr h1)
        ⟨(j 0).val, hj0⟩ ⟨(j 1).val, hj1⟩ ⟨t.val * 131072 + (j 1).val, by omega⟩ rfl
    · rw [Value.flushed4_B m c t h0 h1]
      funext j
      have hj0 : (j 0).val < 16 := ((cfg0.win 4).xinj (grid0.coords t) j 0).isLt
      have hj1 : (j 1).val < 131072 := ((cfg0.win 4).xinj (grid0.coords t) j 1).isLt
      rw [View.read_apply, cast_eq, hemb j hj0 ⟨t.val * 131072 + (j 1).val, by omega⟩ rfl]
      refine (congrArg (out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h))
        (iblk m c 0 t) (iblk m c 1 t) (iblk m c 2 t) (iblk m c 3 t)) (hxj j hj0 hj1)).trans ?_
      exact pointB (m ((c : Thread nD τ).loc main_arg0)) (m ((c : Thread nD τ).loc main_arg1)) (m ((c : Thread nD τ).loc main_arg2))
        c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) t.val
        (fun r q n hn => iblk0_apply m c t r q n hn) (fun q => iblk1_apply m c t q) (fun q => iblk2_apply m c t q)
        (fun q => iblk3_apply m c t q) (by omega) (by omega) (fun h => h0 ((hcond0_0 t).mp h)) (fun h => h1 ((hcond0_1 t).mp h))
        ⟨(j 0).val, hj0⟩ ⟨(j 1).val, hj1⟩ ⟨t.val * 131072 + (j 1).val, by omega⟩ rfl

/-- An index of the array is in point t's block iff each coordinate is in the block's range on its axis. -/
theorem mem_blk (t : Fin cfg0.N) (i : S16x4194304.Idx) :
    i ∈ ((cfg0.win 4).blk t).view.set ↔ ∀ a : Fin 2, win0_4.index t a * S16x131072.size a ≤ (i a).val
      ∧ (i a).val < win0_4.index t a * S16x131072.size a + S16x131072.size a := by
  show i ∈ ((View.whole main_v0).slice (win0_4.rect t)).set ↔ _
  rw [View.set_slice_whole, Rect.mem_set_unit]
  exact Iff.rfl

/-- Every index of the array is in the block of the point its column falls in: column n in block n / 131072. -/
theorem cover (i : S16x4194304.Idx) : ∃ t : Fin cfg0.N, (cfg0.win 4).flush t = true ∧ i ∈ ((cfg0.win 4).blk t).view.set := by
  have hi0 : (i 0).val < 16 := idx2_lt0 i
  have hi1 : (i 1).val < 4194304 := idx2_lt1 i
  have hN : cfg0.N = 32 := N_0
  let t : Fin cfg0.N := ⟨(i 1).val / 131072, by rw [hN]; omega⟩
  obtain ⟨-, -, -, -, -, -, -, -, e0, e1⟩ := idx_facts t
  have e1' : win0_4.index t (1 : Fin 2) = (i 1).val / 131072 := e1
  refine ⟨t, flush0_4 t, ?_⟩
  rw [mem_blk]
  refine Fin.forall_fin_two.mpr ⟨?_, ?_⟩
  · show win0_4.index t (0 : Fin 2) * 16 ≤ (i 0).val ∧ (i 0).val < win0_4.index t (0 : Fin 2) * 16 + 16
    rw [e0]; omega
  · show win0_4.index t (1 : Fin 2) * 131072 ≤ (i 1).val ∧ (i 1).val < win0_4.index t (1 : Fin 2) * 131072 + 131072
    rw [e1']; omega

/-- THE ARRAY after the run is the result. -/
theorem final (c : Dev nD) : (dats m 0 c).arrAt 4 cfg0.N = result m c :=
  (dats m 0 c).arrAt_eq_of_cover 4 (result m c) (fun t _ => flushed_eq m c t) cover

/-- The kernel's run, read: the result array at x·weight of the launch contents, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.lean ====
/-
  The kernel against its reference: windowed overlap-add of a 16 × 4194304 signal with hop 512 and frames of 1024.

  The reference cuts the signal into 8191 overlapping frames (frame k holds the samples 512·k + t, t < 1024),
  multiplies each frame by the analysis window a and by the synthesis window s, and adds every frame back at its
  place into an array of zeros: sample n of the result is the sum, over the frames covering n, of x[b, n]·a[t]·s[t].
  Every sample is covered by at most two frames, so the kernel instead multiplies each sample once, by a weight it
  prepares ahead: p[t] = a[t]·s[t] at the one covering position on the first and last 512 samples, and
  p[n % 512] + p[n % 512 + 512] elsewhere (a row of 131072 such weights, the same for all 32 column blocks, with the
  two edges patched at the first and the last block).

  On the extended reals the two agree where the inputs are real numbers, which the precondition says: on the edges
  0 + (x·a)·s = x·(a·s) needs only associativity, and in the interior x·p + x·q = x·(p + q) is distributivity, which
  holds for reals (and fails at infinities: at x = +∞, p = 1, q = −1 the two sides differ).

  The kernel's side (what each grid point writes back, entry by entry, and that the blocks tile the array) is in
  KBlock / KHost / KValue; the reference's gather and scatter read at an index are in RefIndex / RefDims / RefValue;
  that the two spellings agree on real inputs is OlaAlgebra; that the precondition gives real entries is Finite.
  Nothing in the kernel's text was rewritten for reading it at the extended reals: it is its own idealization.
-/
import proofs.«107913_j91293824843827_2_alg».proof.Defs
import proofs.«107913_j91293824843827_2_alg».proof.Proof.Gen.Kernel
import proofs.«107913_j91293824843827_2_alg».proof.Proof.Gen.Kernel.Frame
import proofs.«107913_j91293824843827_2_alg».proof.Proof.Gen.KernelIdeal
import proofs.«107913_j91293824843827_2_alg».proof.Proof.Gen.KernelIdeal.Frame
import proofs.«107913_j91293824843827_2_alg».proof.Proof.Gen.KernelIdeal.Value
import proofs.«107913_j91293824843827_2_alg».proof.Proof.Gen.ReferenceIdeal
import proofs.«107913_j91293824843827_2_alg».proof.Proof.Gen.ReferenceIdeal.Run
import proofs.«107913_j91293824843827_2_alg».proof.Proof.Gen.ReferenceIdeal.Read
import proofs.«107913_j91293824843827_2_alg».proof.Proof.Gen.Pre_finite_inputs
import proofs.«107913_j91293824843827_2_alg».proof.Proof.Spec
import proofs.«107913_j91293824843827_2_alg».proof.Proof.OlaAlgebra
import proofs.«107913_j91293824843827_2_alg».proof.Proof.Finite
import proofs.«107913_j91293824843827_2_alg».proof.Proof.RefValue
import proofs.«107913_j91293824843827_2_alg».proof.Proof.KValue
import Idealize.ShloMosaic.Adequacy
import Idealize.ShloMosaic.Init

noncomputable section

namespace Cert.Proof

open Idealize.ShloMosaic Idealize.SL.Sem

/-- The word-level kernel runs to the end and leaves its arguments alone. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- On real inputs the kernel's x·weight and the reference's sum of the covering frames' terms are one array. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq (F := Ideal) _ _ _).trans ?_
  rw [(hagree c).1, (hagree c).2.1, (hagree c).2.2]
  obtain ⟨hx, ha, hs⟩ := Cert.Ola.real_of_finite_inputs _ _ _ (hpre c)
  exact (Cert.ReferenceIdeal.RefValue.ref_eq_olaSum _ _ _).trans (Cert.Ola.olaSum_eq_olaMul _ _ _ hx ha hs)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
